-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x441x128x128 : Shape := ⟨4, ![8, 441, 128, 128]⟩
abbrev S8x2x128x128 : Shape := ⟨4, ![8, 2, 128, 128]⟩
abbrev S_ : Shape := ⟨0, ![]⟩

class Facts : Prop where
  bcast_S_S8x441x128x128 : S_.BroadcastsInDim S8x441x128x128 (![] : Fin 0 → Fin S8x441x128x128.rank)
  reducesTo_S8x441x128x128_S_d0_1_2_3 : S8x441x128x128.ReducesTo [0, 1, 2, 3] S_
  h_S_ : 0 < S_.numel
  bcast_S_S8x2x128x128 : S_.BroadcastsInDim S8x2x128x128 (![] : Fin 0 → Fin S8x2x128x128.rank)
  reducesTo_S8x2x128x128_S_d0_1_2_3 : S8x2x128x128.ReducesTo [0, 1, 2, 3] S_

variable [Facts]

def fn {F : FTy → Type} [FloatOps F] (main_arg0 : FVec F S8x441x128x128 .f32) (main_arg1 : FVec F S8x2x128x128 .f32) : IVec S_ 1 :=
  let main_v0 : FVec F S8x441x128x128 .f32 := Host.absf main_arg0
  let main_cst : FVec F S_ .f32 := constant S_ .f32 0x7F800000#32
  let main_v1 : FVec F S8x441x128x128 .f32 := broadcastInDim S8x441x128x128 ![] bcast_S_S8x441x128x128 main_cst
  let main_v2 : IVec S8x441x128x128 1 := cmpf .olt main_v0 main_v1
  let main_c : IVec S_ 1 := constantI S_ 1 1#1
  let main_v3 : IVec S_ 1 := (fun x v => Host.reduce IntOp.andi x v reducesTo_S8x441x128x128_S_d0_1_2_3 h_S_) main_v2 main_c
  let main_v4 : FVec F S8x2x128x128 .f32 := Host.absf main_arg1
  let main_cst_0 : FVec F S_ .f32 := constant S_ .f32 0x7F800000#32
  let main_v5 : FVec F S8x2x128x128 .f32 := broadcastInDim S8x2x128x128 ![] bcast_S_S8x2x128x128 main_cst_0
  let main_v6 : IVec S8x2x128x128 1 := cmpf .olt main_v4 main_v5
  let main_c_1 : IVec S_ 1 := constantI S_ 1 1#1
  let main_v7 : IVec S_ 1 := (fun x v => Host.reduce IntOp.andi x v reducesTo_S8x2x128x128_S_d0_1_2_3 h_S_) main_v6 main_c_1
  let main_v8 : IVec S_ 1 := andi main_v3 main_v7
  main_v8
-- ==== Kernel.lean ====
abbrev S8x441x128x128 : Shape := ⟨4, ![8, 441, 128, 128]⟩
abbrev S8x2x128x128 : Shape := ⟨4, ![8, 2, 128, 128]⟩
abbrev S_ : Shape := ⟨0, ![]⟩
abbrev S8x1x128x128 : Shape := ⟨4, ![8, 1, 128, 128]⟩
abbrev S8x128x128 : Shape := ⟨3, ![8, 128, 128]⟩
abbrev S8x1x128 : Shape := ⟨3, ![8, 1, 128]⟩
abbrev S1x128x128 : Shape := ⟨3, ![1, 128, 128]⟩
abbrev S1x147x128x128 : Shape := ⟨4, ![1, 147, 128, 128]⟩
abbrev S1x1x128 : Shape := ⟨3, ![1, 1, 128]⟩
abbrev S128x128 : Shape := ⟨2, ![128, 128]⟩
abbrev S147x128x128 : Shape := ⟨3, ![147, 128, 128]⟩
abbrev S147x1x1 : Shape := ⟨3, ![147, 1, 1]⟩
abbrev S128 : Shape := ⟨1, ![128]⟩
abbrev S1x128 : Shape := ⟨2, ![1, 128]⟩
abbrev S8x128 : Shape := ⟨2, ![8, 128]⟩

abbrev nBuf : Space → Nat
  | .hbm => 30
  | .vmem => 7
  | .smem => 0
  | _ => 0

abbrev bufTy : (tb : Table) → Fin (tcTables nBuf tb) → BufTy
  | .hbm, ⟨0, _⟩ => ⟨S8x441x128x128, .f32⟩
  | .hbm, ⟨1, _⟩ => ⟨S8x2x128x128, .f32⟩
  | .hbm, ⟨2, _⟩ => ⟨S_, .f32⟩
  | .hbm, ⟨3, _⟩ => ⟨S8x2x128x128, .f32⟩
  | .hbm, ⟨4, _⟩ => ⟨S8x2x128x128, .f32⟩
  | .hbm, ⟨5, _⟩ => ⟨S_, .f32⟩
  | .hbm, ⟨6, _⟩ => ⟨S8x2x128x128, .f32⟩
  | .hbm, ⟨7, _⟩ => ⟨S8x2x128x128, .f32⟩
  | .hbm, ⟨8, _⟩ => ⟨S8x2x128x128, .f32⟩
  | .hbm, ⟨9, _⟩ => ⟨S_, .i32⟩
  | .hbm, ⟨10, _⟩ => ⟨S_, .i32⟩
  | .hbm, ⟨11, _⟩ => ⟨S_, .f32⟩
  | .hbm, ⟨12, _⟩ => ⟨S8x2x128x128, .f32⟩
  | .hbm, ⟨13, _⟩ => ⟨S8x2x128x128, .f32⟩
  | .hbm, ⟨14, _⟩ => ⟨S_, .f32⟩
  | .hbm, ⟨15, _⟩ => ⟨S8x2x128x128, .f32⟩
  | .hbm, ⟨16, _⟩ => ⟨S8x2x128x128, .f32⟩
  | .hbm, ⟨17, _⟩ => ⟨S8x2x128x128, .i32⟩
  | .hbm, ⟨18, _⟩ => ⟨S8x1x128x128, .i32⟩
  | .hbm, ⟨19, _⟩ => ⟨S8x128x128, .i32⟩
  | .hbm, ⟨20, _⟩ => ⟨S_, .i32⟩
  | .hbm, ⟨21, _⟩ => ⟨S8x128x128, .i32⟩
  | .hbm, ⟨22, _⟩ => ⟨S8x128x128, .i32⟩
  | .hbm, ⟨23, _⟩ => ⟨S8x1x128x128, .i32⟩
  | .hbm, ⟨24, _⟩ => ⟨S8x128x128, .i32⟩
  | .hbm, ⟨25, _⟩ => ⟨S8x128x128, .i32⟩
  | .hbm, ⟨26, _⟩ => ⟨S8x1x128, .f32⟩
  | .hbm, ⟨27, _⟩ => ⟨S8x128, .f32⟩
  | .hbm, ⟨28, _⟩ => ⟨S_, .f32⟩
  | .hbm, ⟨29, _⟩ => ⟨S128, .f32⟩
  | .local _ .vmem, ⟨0, _⟩ => ⟨S1x128x128, .i32⟩
  | .local _ .vmem, ⟨1, _⟩ => ⟨S1x128x128, .i32⟩
  | .local _ .vmem, ⟨2, _⟩ => ⟨S1x147x128x128, .f32⟩
  | .local _ .vmem, ⟨3, _⟩ => ⟨S1x147x128x128, .f32⟩
  | .local _ .vmem, ⟨4, _⟩ => ⟨S1x1x128, .f32⟩
  | .local _ .vmem, ⟨5, _⟩ => ⟨S1x1x128, .f32⟩
  | .local _ .vmem, ⟨6, _⟩ => ⟨S128x128, .f32⟩
  | _, _ => ⟨S8x441x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.hbm, 9, rfl⟩
abbrev main_c_1 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_c_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_v16 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 3], ![false, false]⟩

def k0_cond2 (i : grid0.Coords) : BitVec 1 :=
  let arg1 : BitVec 32 := BitVec.ofNat 32 (i 1).val
  let c2_i32 : BitVec 32 := 2#32
  let v23 : BitVec 1 := Scalar.cmpi .eq arg1 c2_i32
  let v24 : BitVec 32 := Scalar.extui v23
  let c0_i32_12 : BitVec 32 := 0#32
  let v25 : BitVec 1 := Scalar.cmpi .ne v24 c0_i32_12
  v25

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x128x128 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x147x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  bcast_S_S8x2x128x128 : S_.BroadcastsInDim S8x2x128x128 (![] : Fin 0 → Fin S8x2x128x128.rank)
  slices_S8x2x128x128_S8x1x128x128_0_0_0_0 : S8x2x128x128.Slices ![0, 0, 0, 0] S8x1x128x128
  shapeCasts_S8x1x128x128_S8x128x128 : S8x1x128x128.ShapeCasts S8x128x128
  bcast_S_S8x128x128 : S_.BroadcastsInDim S8x128x128 (![] : Fin 0 → Fin S8x128x128.rank)
  slices_S8x2x128x128_S8x1x128x128_0_1_0_0 : S8x2x128x128.Slices ![0, 1, 0, 0] S8x1x128x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x147x128x128_S1x147x128x128_0_0_0_0 : ∀ a, (![0, 0, 0, 0] : Fin 4 → Nat) a + S1x147x128x128.size a ≤ S1x147x128x128.size a
  h_S1x147x128x128 : 0 < S1x147x128x128.numel
  shapeCasts_S1x147x128x128_S147x128x128 : S1x147x128x128.ShapeCasts S147x128x128
  inb_S1x128x128_S1x128x128_0_0_0 : ∀ a, (![0, 0, 0] : Fin 3 → Nat) a + S1x128x128.size a ≤ S1x128x128.size a
  h_S1x128x128 : 0 < S1x128x128.numel
  shapeCasts_S1x128x128_S128x128 : S1x128x128.ShapeCasts S128x128
  iota_S147x1x1_d0_w32 : S147x1x1.Iotas .tc 32 [0]
  shapeCasts_S128x128_S1x128x128 : S128x128.ShapeCasts S1x128x128
  broadcasts_S1x128x128_S147x128x128 : S1x128x128.Broadcasts S147x128x128
  broadcasts_S147x1x1_S147x128x128 : S147x1x1.Broadcasts S147x128x128
  reduces_S147x128x128_S128x128 : S147x128x128.Reduces [0] S128x128
  reduces_S128x128_S128 : S128x128.Reduces [0] S128
  shapeCasts_S128_S1x128 : S128.ShapeCasts S1x128
  inb_S1x1x128_S1x1x128_0_0_0 : ∀ a, (![0, 0, 0] : Fin 3 → Nat) a + S1x1x128.size a ≤ S1x1x128.size a
  h_S1x1x128 : 0 < S1x1x128.numel
  shapeCasts_S1x1x128_S1x128 : S1x1x128.ShapeCasts S1x128
  shapeCasts_S1x128_S1x1x128 : S1x128.ShapeCasts S1x1x128
  shapeCasts_S8x1x128_S8x128 : S8x1x128.ShapeCasts S8x128
  reducesTo_S8x128_S128_d0 : S8x128.ReducesTo [0] S128
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x128.size a ≤ S8x128x128.size a
  hwx0_0 : ∀ i : grid0.Coords, EltTy.bits .i32 = 32 ∨ (Rect.block (s := S8x128x128) S1x128x128.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x147x128x128.size a ≤ S8x441x128x128.size a
  hwx0_1 : ∀ i : grid0.Coords, EltTy.bits .f32 = 32 ∨ (Rect.block (s := S8x441x128x128) S1x147x128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x128.size a ≤ S8x1x128.size a
  hwx0_2 : ∀ i : grid0.Coords, EltTy.bits .f32 = 32 ∨ (Rect.block (s := S8x1x128) S1x1x128.size (cc0_transform_2 i) (hinb0_2 i)).WholeWords (EltTy.packing .f32)

variable [Facts₀]

abbrev win0_0 : Pipeline.Window sig grid0 :=
  Pipeline.Window.ofSpec (Memref.whole main_v13) S1x128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x147x128x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S1x1x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S8x441x128x128 : Shape := ⟨4, ![8, 441, 128, 128]⟩
abbrev S8x2x128x128 : Shape := ⟨4, ![8, 2, 128, 128]⟩
abbrev S_ : Shape := ⟨0, ![]⟩
abbrev S8x1x128x128 : Shape := ⟨4, ![8, 1, 128, 128]⟩
abbrev S8x128x128 : Shape := ⟨3, ![8, 128, 128]⟩
abbrev S8x1x128x128x1 : Shape := ⟨5, ![8, 1, 128, 128, 1]⟩
abbrev S1 : Shape := ⟨1, ![1]⟩
abbrev S1x1x1x1x1 : Shape := ⟨5, ![1, 1, 1, 1, 1]⟩
abbrev S128 : Shape := ⟨1, ![128]⟩

abbrev nBuf : Space → Nat
  | .hbm => 53
  | .vmem => 0
  | .smem => 0
  | _ => 0

abbrev bufTy : (tb : Table) → Fin (tcTables nBuf tb) → BufTy
  | .hbm, ⟨0, _⟩ => ⟨S8x441x128x128, .f32⟩
  | .hbm, ⟨1, _⟩ => ⟨S8x2x128x128, .f32⟩
  | .hbm, ⟨2, _⟩ => ⟨S_, .f32⟩
  | .hbm, ⟨3, _⟩ => ⟨S8x2x128x128, .f32⟩
  | .hbm, ⟨4, _⟩ => ⟨S8x2x128x128, .f32⟩
  | .hbm, ⟨5, _⟩ => ⟨S_, .f32⟩
  | .hbm, ⟨6, _⟩ => ⟨S8x2x128x128, .f32⟩
  | .hbm, ⟨7, _⟩ => ⟨S8x2x128x128, .f32⟩
  | .hbm, ⟨8, _⟩ => ⟨S8x2x128x128, .f32⟩
  | .hbm, ⟨9, _⟩ => ⟨S_, .i32⟩
  | .hbm, ⟨10, _⟩ => ⟨S_, .i32⟩
  | .hbm, ⟨11, _⟩ => ⟨S_, .f32⟩
  | .hbm, ⟨12, _⟩ => ⟨S8x2x128x128, .f32⟩
  | .hbm, ⟨13, _⟩ => ⟨S8x2x128x128, .f32⟩
  | .hbm, ⟨14, _⟩ => ⟨S_, .f32⟩
  | .hbm, ⟨15, _⟩ => ⟨S8x2x128x128, .f32⟩
  | .hbm, ⟨16, _⟩ => ⟨S8x2x128x128, .f32⟩
  | .hbm, ⟨17, _⟩ => ⟨S8x2x128x128, .i32⟩
  | .hbm, ⟨18, _⟩ => ⟨S8x1x128x128, .i32⟩
  | .hbm, ⟨19, _⟩ => ⟨S8x128x128, .i32⟩
  | .hbm, ⟨20, _⟩ => ⟨S_, .i32⟩
  | .hbm, ⟨21, _⟩ => ⟨S8x128x128, .i32⟩
  | .hbm, ⟨22, _⟩ => ⟨S8x128x128, .i32⟩
  | .hbm, ⟨23, _⟩ => ⟨S8x1x128x128, .i32⟩
  | .hbm, ⟨24, _⟩ => ⟨S8x128x128, .i32⟩
  | .hbm, ⟨25, _⟩ => ⟨S8x128x128, .i32⟩
  | .hbm, ⟨26, _⟩ => ⟨S8x441x128x128, .f32⟩
  | .hbm, ⟨27, _⟩ => ⟨S8x1x128x128, .i32⟩
  | .hbm, ⟨28, _⟩ => ⟨S_, .i32⟩
  | .hbm, ⟨29, _⟩ => ⟨S8x1x128x128, .i32⟩
  | .hbm, ⟨30, _⟩ => ⟨S8x1x128x128, .i1⟩
  | .hbm, ⟨31, _⟩ => ⟨S_, .i32⟩
  | .hbm, ⟨32, _⟩ => ⟨S8x1x128x128, .i32⟩
  | .hbm, ⟨33, _⟩ => ⟨S8x1x128x128, .i32⟩
  | .hbm, ⟨34, _⟩ => ⟨S8x1x128x128, .i32⟩
  | .hbm, ⟨35, _⟩ => ⟨S8x1x128x128x1, .i32⟩
  | .hbm, ⟨36, _⟩ => ⟨S1, .i32⟩
  | .hbm, ⟨37, _⟩ => ⟨S_, .i32⟩
  | .hbm, ⟨38, _⟩ => ⟨S8x1x128x128x1, .i32⟩
  | .hbm, ⟨39, _⟩ => ⟨S8x1x128x128x1, .i1⟩
  | .hbm, ⟨40, _⟩ => ⟨S1x1x1x1x1, .i32⟩
  | .hbm, ⟨41, _⟩ => ⟨S8x1x128x128x1, .i32⟩
  | .hbm, ⟨42, _⟩ => ⟨S8x1x128x128x1, .i1⟩
  | .hbm, ⟨43, _⟩ => ⟨S8x1x128x128x1, .i1⟩
  | .hbm, ⟨44, _⟩ => ⟨S_, .i1⟩
  | .hbm, ⟨45, _⟩ => ⟨S8x1x128x128, .i1⟩
  | .hbm, ⟨46, _⟩ => ⟨S8x1x128x128, .f32⟩
  | .hbm, ⟨47, _⟩ => ⟨S_, .f32⟩
  | .hbm, ⟨48, _⟩ => ⟨S8x1x128x128, .f32⟩
  | .hbm, ⟨49, _⟩ => ⟨S8x1x128x128, .f32⟩
  | .hbm, ⟨50, _⟩ => ⟨S_, .f32⟩
  | .hbm, ⟨51, _⟩ => ⟨S128, .f32⟩
  | .hbm, ⟨52, _⟩ => ⟨S128, .f32⟩
  | _, _ => ⟨S8x441x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.hbm, 9, rfl⟩
abbrev main_c_1 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_c_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_call1_c : Ref sig .tc := ⟨.hbm, 28, rfl⟩
abbrev main_call1_v0 : Ref sig .tc := ⟨.hbm, 29, rfl⟩
abbrev main_call1_v1 : Ref sig .tc := ⟨.hbm, 30, rfl⟩
abbrev main_call1_c_0 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_call1_v5 : Ref sig .tc := ⟨.hbm, 35, rfl⟩
abbrev main_call1_c_1 : Ref sig .tc := ⟨.hbm, 36, rfl⟩
abbrev main_call1_c_2 : Ref sig .tc := ⟨.hbm, 37, rfl⟩
abbrev main_call1_v6 : Ref sig .tc := ⟨.hbm, 38, rfl⟩
abbrev main_call1_v7 : Ref sig .tc := ⟨.hbm, 39, rfl⟩
abbrev main_call1_v8 : Ref sig .tc := ⟨.hbm, 40, rfl⟩
abbrev main_call1_v9 : Ref sig .tc := ⟨.hbm, 41, rfl⟩
abbrev main_call1_v10 : Ref sig .tc := ⟨.hbm, 42, rfl⟩
abbrev main_call1_v11 : Ref sig .tc := ⟨.hbm, 43, rfl⟩
abbrev main_call1_c_3 : Ref sig .tc := ⟨.hbm, 44, rfl⟩
abbrev main_call1_v12 : Ref sig .tc := ⟨.hbm, 45, rfl⟩
abbrev main_call1_v13 : Ref sig .tc := ⟨.hbm, 46, rfl⟩
abbrev main_call1_cst : Ref sig .tc := ⟨.hbm, 47, rfl⟩
abbrev main_call1_v14 : Ref sig .tc := ⟨.hbm, 48, rfl⟩
abbrev main_v16 : Ref sig .tc := ⟨.hbm, 49, rfl⟩
abbrev main_cst_3 : Ref sig .tc := ⟨.hbm, 50, rfl⟩
abbrev main_v17 : Ref sig .tc := ⟨.hbm, 51, rfl⟩
abbrev main_v18 : Ref sig .tc := ⟨.hbm, 52, rfl⟩

abbrev nD : Nat := 1
abbrev τ : Topo := Topo.v7x

variable {F : FTy → Type} [FloatOps F]

class Facts₀ : Prop where
  bcast_S_S8x2x128x128 : S_.BroadcastsInDim S8x2x128x128 (![] : Fin 0 → Fin S8x2x128x128.rank)
  slices_S8x2x128x128_S8x1x128x128_0_0_0_0 : S8x2x128x128.Slices ![0, 0, 0, 0] S8x1x128x128
  shapeCasts_S8x1x128x128_S8x128x128 : S8x1x128x128.ShapeCasts S8x128x128
  bcast_S_S8x128x128 : S_.BroadcastsInDim S8x128x128 (![] : Fin 0 → Fin S8x128x128.rank)
  slices_S8x2x128x128_S8x1x128x128_0_1_0_0 : S8x2x128x128.Slices ![0, 1, 0, 0] S8x1x128x128
  bcast_S8x128x128_S8x1x128x128_0_2_3 : S8x128x128.BroadcastsInDim S8x1x128x128 (![0, 2, 3] : Fin 3 → Fin S8x1x128x128.rank)
  bcast_S_S8x1x128x128 : S_.BroadcastsInDim S8x1x128x128 (![] : Fin 0 → Fin S8x1x128x128.rank)
  shapeCasts_S8x1x128x128_S8x1x128x128x1 : S8x1x128x128.ShapeCasts S8x1x128x128x1
  bcast_S_S8x1x128x128x1 : S_.BroadcastsInDim S8x1x128x128x1 (![] : Fin 0 → Fin S8x1x128x128x1.rank)
  bcast_S1_S1x1x1x1x1_4 : S1.BroadcastsInDim S1x1x1x1x1 (![4] : Fin 1 → Fin S1x1x1x1x1.rank)
  bcast_S1x1x1x1x1_S8x1x128x128x1_0_1_2_3_4 : S1x1x1x1x1.BroadcastsInDim S8x1x128x128x1 (![0, 1, 2, 3, 4] : Fin 5 → Fin S8x1x128x128x1.rank)
  reducesTo_S8x1x128x128x1_S8x1x128x128_d4 : S8x1x128x128x1.ReducesTo [4] S8x1x128x128
  h_S_ : 0 < S_.numel
  reducesTo_S8x1x128x128_S128_d0_1_2 : S8x1x128x128.ReducesTo [0, 1, 2] S128
  gather_S8x441x128x128_S8x1x128x128x1_S8x1x128x128_n_1_023_023_1_4_1111_wf : GatherDims.WF S8x441x128x128 S8x1x128x128x1 S8x1x128x128 [] [1] [0, 2, 3] [1] [0, 2, 3] 4 ![1, 1, 1, 1]

variable [Facts₀]

def gather_S8x441x128x128_S8x1x128x128x1_S8x1x128x128_n_1_023_023_1_4_1111 : GatherDims S8x441x128x128 S8x1x128x128x1 S8x1x128x128 where
  offsetDims := []
  collapsedSliceDims := [1]
  operandBatchingDims := [0, 2, 3]
  startIndicesBatchingDims := [0, 2, 3]
  startIndexMap := [1]
  indexVectorDim := 4
  sliceSizes := ![1, 1, 1, 1]
  wf := gather_S8x441x128x128_S8x1x128x128x1_S8x1x128x128_n_1_023_023_1_4_1111_wf

class Facts : Prop extends Facts₀ where

variable [Facts]
-- ==== Proof.Spec.lean ====
/-
  The specification both programs meet at the ideal instance.

  A pixel `(n, h, w)` carries a bin number `k(n, h, w)` in `[0, 441)` (a 32-bit word computed from the two
  colour channels of `y`), and the loss at column `w` is minus the sum over images `n` and rows `h` of
  `log x[n, k(n, h, w), h, w]` on the extended reals.
-/
import Idealize.ShloMosaic.PureOps.Ideal
import Idealize.ShloMosaic.Lib.ValueIdx

noncomputable section

open scoped BigOperators

namespace Cert.Spec

open Idealize.ShloMosaic Idealize.ShloMosaic.ValueIdx

/-- The probabilities: images × bins × rows × columns. -/
abbrev SX : Shape := ⟨4, ![8, 441, 128, 128]⟩
/-- The bin numbers: images × rows × columns. -/
abbrev SB : Shape := ⟨3, ![8, 128, 128]⟩
/-- The result: one number per column. -/
abbrev SW : Shape := ⟨1, ![128]⟩

/-- The bin a pixel's word names, read unsigned. (The remainder only makes the function total: the
    words that occur are below 441.) -/
def bin (idx : IVec SB 32) (n : Fin 8) (h w : Fin 128) : Fin 441 :=
  ⟨(idx (ix3 n h w)).toNat % 441, Nat.mod_lt _ (by norm_num)⟩

/-- The probability of the pixel's own bin. -/
def picked (x : FVec Ideal SX .f32) (idx : IVec SB 32) (n : Fin 8) (h w : Fin 128) : EReal :=
  x (ix4 n (bin idx n h w) h w)

/-- The loss per column: minus the sum, over images and rows, of the logarithm of the picked probability. -/
def loss (x : FVec Ideal SX .f32) (idx : IVec SB 32) : FVec Ideal SW .f32 :=
  fun j => -(∑ n : Fin 8, ∑ h : Fin 128, Ideal.log (picked x idx n h (j 0)))

theorem bin_val (idx : IVec SB 32) (n : Fin 8) (h w : Fin 128) (hlt : (idx (ix3 n h w)).toNat < 441) :
    (bin idx n h w).val = (idx (ix3 n h w)).toNat := by
  unfold bin; exact Nat.mod_eq_of_lt hlt

end Cert.Spec

end
-- ==== Proof.RefValue.lean ====
/-
  The reference's result is the specification's loss.

  The reference takes the logarithm of the probabilities, picks at every pixel `(n, h, w)` the entry of the pixel's bin
  word `k(n, h, w)` along the bin axis (a take-along-axis in fill mode: wrap a negative index by 441, mask the indices
  outside `[0, 440]`, gather, put NaN where the mask is 0), sums over images, the unit axis and rows from zero, and
  negates. When every bin word is below 441 — as a signed word it is then between 0 and 440 — the wrap keeps the word,
  the mask is 1 everywhere, the gather reads the logarithm at `(n, k(n, h, w), h, w)`, and the sum at column `w` is the
  double sum over images and rows. Three operations are read at an index here: the reduction of the mask by `and` over
  its last axis, the gather with batching axes, and the sum over three axes.
-/
import proofs.«104885_j67791763800580_2_alg».proof.Proof.RefReadP
import proofs.«104885_j67791763800580_2_alg».proof.Proof.Spec
import Idealize.ShloMosaic.Lib.ValueIdx
import Idealize.ShloMosaic.Lib.IdealHost
import Idealize.ShloMosaic.Lib.Affine
import Idealize.ShloMosaic.PureOps.Reduce
import Idealize.ShloMosaic.PureOps.Ideal.Laws

noncomputable section

open scoped BigOperators

namespace Cert.ReferenceIdeal.RefValue

open Cert.ReferenceIdeal Cert.ReferenceIdeal.Gen Cert.ReferenceIdeal.ReadP Idealize.ShloMosaic Idealize.ShloMosaic.ValueIdx

/-! ## Words below 441 -/

/-- A 32-bit word below 441 read signed is the number it is read unsigned. -/
theorem toInt_of_lt {v : BitVec 32} (h : v.toNat < 441) : v.toInt = (v.toNat : Int) := by
  rw [BitVec.toInt_eq_toNat_of_lt (by omega)]

/-- A left fold by `and` from 1 over one-bit words that are all 1 is 1. -/
theorem foldl_andi_one {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a List.mem_cons_self, show IntOp.andi 1#1 1#1 = 1#1 by decide]
    exact foldl_andi_one f l (fun n hn => h n (List.mem_cons_of_mem _ hn))

section Mask

variable (x1 : FVec Ideal S8x2x128x128 .f32)
  (hidx : ∀ j, (val_main_v13 (F := Ideal) x1 j).toNat < 441)
include hidx

/-- A bin word below 441 is not negative as a signed word, so the wrap by 441 keeps it. -/
theorem v4_eq (j : S8x1x128x128.Idx) :
    val_main_call1_v4 (F := Ideal) x1 j = val_main_v13 (F := Ideal) x1 (idx_main_v15 j) := by
  rw [val_main_call1_v4_apply, val_main_call1_v1_apply, val_main_v15_apply]
  have hk := hidx (idx_main_v15 j)
  have h0 : IntOp.cmpi .slt (val_main_v13 (F := Ideal) x1 (idx_main_v15 j)) (val_main_call1_v0 (F := Ideal) j) = 0#1 := by
    apply eq_zero_of_ne_one
    rw [IntOp.cmpi_slt, val_main_call1_v0_apply, val_main_call1_c_apply, toInt_of_lt hk, BitVec.toInt_zero]
    omega
  rw [h0, select_zero]

/-- The start index at any position is the bin word of its pixel. -/
theorem v5_eq (i : S8x1x128x128x1.Idx) :
    val_main_call1_v5 (F := Ideal) x1 i = val_main_v13 (F := Ideal) x1 (idx_main_v15 (idx_main_call1_v5 i)) := by
  rw [val_main_call1_v5_apply, v4_eq x1 hidx]

/-- The in-bounds mask is 1 everywhere: the start index is between 0 and 440. -/
theorem v11_eq_one (i : S8x1x128x128x1.Idx) : val_main_call1_v11 (F := Ideal) x1 i = 1#1 := by
  rw [val_main_call1_v11_apply, IntOp.andi_eq_one, val_main_call1_v7_apply, val_main_call1_v10_apply, v5_eq x1 hidx i]
  have hk := hidx (idx_main_v15 (idx_main_call1_v5 i))
  constructor
  · rw [IntOp.cmpi_sge, val_main_call1_v6_apply, val_main_call1_c_2_apply, toInt_of_lt hk, BitVec.toInt_zero]
    omega
  · rw [IntOp.cmpi_sle, val_main_call1_v9_apply, val_main_call1_v8_apply, val_main_call1_c_1_apply, toInt_of_lt hk,
      show (440#32 : BitVec 32).toInt = 440 by decide]
    omega

/-- Reduced by `and` over its last axis (of one element) from 1, the mask is 1 everywhere. -/
theorem v12_eq_one (j : S8x1x128x128.Idx) : val_main_call1_v12 (F := Ideal) x1 j = 1#1 := by
  unfold val_main_call1_v12
  rw [Host.reduce_eq_foldl]
  exact foldl_andi_one _ _ (fun n _ => v11_eq_one x1 hidx n)

end Mask

/-! ## The gather read at an index -/

section Gather

variable [Facts₀] {α : Type}

/-- The gather's dimension numbers: batching axes 0, 2, 3 on both sides, the collapsed operand axis 1 named by the
    one-component start index, the index vector on the start indices' last axis. -/
abbrev gd : GatherDims S8x441x128x128 S8x1x128x128x1 S8x1x128x128 :=
  gather_S8x441x128x128_S8x1x128x128x1_S8x1x128x128_n_1_023_023_1_4_1111

/-- The start-indices index the result index `(n, u, h, w)` reads its one start-index component at. -/
theorem gd_siIdx (n : Fin 8) (u : Fin 1) (h w : Fin 128) (c : Fin gd.startIndexMap.length) :
    gd.siIdx (ix4 n u h w) c = ix5 n u h w 0 := by
  funext b; refine Fin.ext ?_
  match b with
  | ⟨0, _⟩ => rfl
  | ⟨1, _⟩ => rfl
  | ⟨2, _⟩ => rfl
  | ⟨3, _⟩ => rfl
  | ⟨4, _⟩ =>
    have := c.isLt
    show c.val = 0
    have hl : gd.startIndexMap.length = 1 := rfl
    omega

variable (idx : IVec S8x1x128x128x1 32) (n : Fin 8) (u : Fin 1) (h w : Fin 128)

/-- On a batching axis the operand coordinate is the result's coordinate on the paired axis: axis 0 … -/
theorem gd_coord0 : gd.start (ix4 n u h w) idx 0 + gd.batchCoord (ix4 n u h w) 0 + gd.offCoord (ix4 n u h w) 0 = n.val := by
  rw [GatherDims.start_batching _ _ _ _ (show (0 : Fin 4) ∈ ([0, 2, 3] : List (Fin 4)) by decide), GatherDims.offCoord_eq_zero _ _ _ (show (0 : Fin 4) ∉ S8x441x128x128.kept (([1] : List (Fin 4)) ++ [0, 2, 3]) by decide)]
  rw [Nat.zero_add, Nat.add_zero]
  unfold GatherDims.batchCoord
  rw [dif_pos (show (0 : Fin 4) ∈ gd.operandBatchingDims from (show (0 : Fin 4) ∈ ([0, 2, 3] : List (Fin 4)) by decide))]
  rfl
/-- … axis 2 … -/
theorem gd_coord2 : gd.start (ix4 n u h w) idx 2 + gd.batchCoord (ix4 n u h w) 2 + gd.offCoord (ix4 n u h w) 2 = h.val := by
  rw [GatherDims.start_batching _ _ _ _ (show (2 : Fin 4) ∈ ([0, 2, 3] : List (Fin 4)) by decide), GatherDims.offCoord_eq_zero _ _ _ (show (2 : Fin 4) ∉ S8x441x128x128.kept (([1] : List (Fin 4)) ++ [0, 2, 3]) by decide)]
  rw [Nat.zero_add, Nat.add_zero]
  unfold GatherDims.batchCoord
  rw [dif_pos (show (2 : Fin 4) ∈ gd.operandBatchingDims from (show (2 : Fin 4) ∈ ([0, 2, 3] : List (Fin 4)) by decide))]
  rfl
/-- … and axis 3. -/
theorem gd_coord3 : gd.start (ix4 n u h w) idx 3 + gd.batchCoord (ix4 n u h w) 3 + gd.offCoord (ix4 n u h w) 3 = w.val := by
  rw [GatherDims.start_batching _ _ _ _ (show (3 : Fin 4) ∈ ([0, 2, 3] : List (Fin 4)) by decide), GatherDims.offCoord_eq_zero _ _ _ (show (3 : Fin 4) ∉ S8x441x128x128.kept (([1] : List (Fin 4)) ++ [0, 2, 3]) by decide)]
  rw [Nat.zero_add, Nat.add_zero]
  unfold GatherDims.batchCoord
  rw [dif_pos (show (3 : Fin 4) ∈ gd.operandBatchingDims from (show (3 : Fin 4) ∈ ([0, 2, 3] : List (Fin 4)) by decide))]
  rfl
/-- On the collapsed axis it is the start index read signed and clamped into `[0, 440]`. -/
theorem gd_coord1 : gd.start (ix4 n u h w) idx 1 + gd.batchCoord (ix4 n u h w) 1 + gd.offCoord (ix4 n u h w) 1
    = min (idx (ix5 n u h w 0)).toInt.toNat 440 := by
  rw [GatherDims.batchCoord_eq_zero _ _ _ (show (1 : Fin 4) ∉ ([0, 2, 3] : List (Fin 4)) by decide),
    GatherDims.offCoord_eq_zero _ _ _ (show (1 : Fin 4) ∉ S8x441x128x128.kept (([1] : List (Fin 4)) ++ [0, 2, 3]) by decide)]
  simp only [Nat.add_zero]
  unfold GatherDims.start
  rw [dif_pos (show (1 : Fin 4) ∈ gd.startIndexMap from List.mem_singleton.mpr rfl), gd_siIdx]
  rfl

/-- THE GATHER READ AT `(n, u, h, w)`: the operand at `(n, k, h, w)`, `k` the start index at `(n, u, h, w, 0)` read
    signed and clamped into `[0, 440]`. -/
theorem gather_apply (x : S8x441x128x128.Idx → α) :
    Host.gather gd x idx (ix4 n u h w)
      = x (ix4 n ⟨min (idx (ix5 n u h w 0)).toInt.toNat 440, by omega⟩ h w) := by
  unfold Host.gather
  congr 1
  funext a
  refine Fin.ext ?_
  show gd.start (ix4 n u h w) idx a + gd.batchCoord (ix4 n u h w) a + gd.offCoord (ix4 n u h w) a = _
  match a with
  | ⟨0, _⟩ => exact gd_coord0 idx n u h w
  | ⟨1, _⟩ => exact gd_coord1 idx n u h w
  | ⟨2, _⟩ => exact gd_coord2 idx n u h w
  | ⟨3, _⟩ => exact gd_coord3 idx n u h w

end Gather

/-! ## The sum over images, the unit axis and rows, read at a column -/

section Sum

/-- The index of the `[8, 1, 128, 128]` array over column `w` at image `n` and row `h`. -/
theorem drop_ix4 (hr : S8x1x128x128.ReducesTo [0, 1, 2] S128) (n : Fin 8) (u : Fin 1) (h w : Fin 128) :
    hr.drop (ix4 n u h w) = ix1 w := by
  funext b
  refine Fin.ext ?_
  match b with
  | ⟨0, _⟩ => exact hr.drop_apply_val_of_eq (ix4 n u h w) 0 3

/-- THE SUM READ AT COLUMN `w`: the initial value plus the double sum over images and rows (the middle axis has the one
    coordinate 0). -/
theorem reduceAdd_apply (x : FVec Ideal S8x1x128x128 .f32) (init : S_.Idx → Ideal .f32)
    (hr : S8x1x128x128.ReducesTo [0, 1, 2] S128) (hu : 0 < S_.numel) (w : Fin 128) :
    Host.reduceAdd x init hr hu (ix1 w) = init ix0 + ∑ n : Fin 8, ∑ h : Fin 128, x (ix4 n 0 h w) := by
  rw [hostReduceAdd_apply]
  unfold Ideal.hostReduceAdd
  rw [show Shape.Idx.first hu = ix0 from eq_ix0 _]
  congr 1
  rw [← Fintype.sum_prod_type' (f := fun (n : Fin 8) (h : Fin 128) => x (ix4 n 0 h w))]
  refine Finset.sum_nbij' (fun i => (i 0, i 2)) (fun p => ix4 p.1 0 p.2 w) ?_ ?_ ?_ ?_ ?_
  · intro i _; exact Finset.mem_univ _
  · intro p _; exact Finset.mem_filter.2 ⟨Finset.mem_univ _, drop_ix4 hr p.1 0 p.2 w⟩
  · intro i hi
    have hj := (Finset.mem_filter.1 hi).2
    have h3 : (i 3).val = w.val := by
      have := congrArg (fun k : S128.Idx => (k 0).val) hj
      simpa [hr.drop_apply_val_of_eq i 0 3] using this
    funext a
    refine Fin.ext ?_
    match a with
    | ⟨0, _⟩ => rfl
    | ⟨1, _⟩ => exact (by have h1 : (i 1).val < 1 := (i 1).isLt; show (0 : Nat) = (i 1).val; omega)
    | ⟨2, _⟩ => rfl
    | ⟨3, _⟩ => exact h3.symm
  · intro p _; rfl
  · intro i hi
    have hj := (Finset.mem_filter.1 hi).2
    have h3 : (i 3).val = w.val := by
      have := congrArg (fun k : S128.Idx => (k 0).val) hj
      simpa [hr.drop_apply_val_of_eq i 0 3] using this
    congr 1
    funext a
    refine Fin.ext ?_
    match a with
    | ⟨0, _⟩ => rfl
    | ⟨1, _⟩ => exact (by have h1 : (i 1).val < 1 := (i 1).isLt; show (i 1).val = (0 : Nat); omega)
    | ⟨2, _⟩ => rfl
    | ⟨3, _⟩ => exact h3

end Sum

/-! ## The reference's result is the specification -/

/-- The pixel `(n, h, w)` of the start indices' position `(n, 0, h, w, 0)`. -/
theorem idx_pixel (n : Fin 8) (h w : Fin 128) :
    idx_main_v15 (idx_main_call1_v5 (ix5 n (0 : Fin 1) h w (0 : Fin 1))) = ix3 n h w := by
  funext a
  refine Fin.ext ?_
  have hn : n.val < 8 := n.isLt
  have hh : h.val < 128 := h.isLt
  have hw : w.val < 128 := w.isLt
  match a with
  | ⟨0, _⟩ => show ((((n.val * 1 + 0) * 128 + h.val) * 128 + w.val) * 1 + 0) / 16384 = n.val; omega
  | ⟨1, _⟩ => show ((((n.val * 1 + 0) * 128 + h.val) * 128 + w.val) * 1 + 0) / 128 % 128 = h.val; omega
  | ⟨2, _⟩ => show ((((n.val * 1 + 0) * 128 + h.val) * 128 + w.val) * 1 + 0) % 128 = w.val; omega

/-- THE REFERENCE'S RESULT IS THE LOSS of the specification at the bin words the reference computes, whenever those words
    are below 441: the wrap keeps them, the mask is 1, the gather reads the logarithm at the pixel's own bin, and the sum
    over images, the unit axis and rows from zero is the double sum; the negation is the extended reals'. -/
theorem reference_is_loss (x0 : FVec Ideal Cert.ReferenceIdeal.S8x441x128x128 .f32)
    (x1 : FVec Ideal Cert.ReferenceIdeal.S8x2x128x128 .f32)
    (hidx : ∀ j, (Cert.ReferenceIdeal.ReadP.val_main_v13 (F := Ideal) x1 j).toNat < 441) :
    Cert.ReferenceIdeal.ReadP.val_main_v18 (F := Ideal) x0 x1
      = Cert.Spec.loss x0 (Cert.ReferenceIdeal.ReadP.val_main_v13 (F := Ideal) x1) := by
  funext j
  obtain ⟨w, rfl⟩ : ∃ w, j = ix1 w := ⟨j 0, eq_ix1 j⟩
  have hsum : val_main_v17 (F := Ideal) x0 x1 (ix1 w)
      = ∑ n : Fin 8, ∑ h : Fin 128, Ideal.log (Cert.Spec.picked x0 (val_main_v13 (F := Ideal) x1) n h w) := by
    unfold val_main_v17
    rw [reduceAdd_apply, val_main_cst_3_apply,
      show (FloatOps.ofBits .f32 0x00000000#32 : Ideal .f32) = 0 from Ideal.ofBits_zero_f32, zero_add]
    refine Finset.sum_congr rfl fun n _ => Finset.sum_congr rfl fun h _ => ?_
    rw [val_main_v16_apply, v12_eq_one x1 hidx, select_one]
    unfold val_main_call1_v13
    rw [gather_apply, val_main_v14_apply, Ideal.hostUnary_log_def]
    have hk := hidx (ix3 n h w)
    have hval : min (val_main_call1_v5 (F := Ideal) x1 (ix5 n (0 : Fin 1) h w (0 : Fin 1))).toInt.toNat 440
        = (Cert.Spec.bin (val_main_v13 (F := Ideal) x1) n h w).val := by
      rw [v5_eq x1 hidx, idx_pixel, Cert.Spec.bin_val _ _ _ _ hk, toInt_of_lt hk, Int.toNat_natCast]
      omega
    exact congrArg (fun k => Ideal.log (x0 (ix4 n k h w))) (Fin.ext hval)
  rw [val_main_v18_apply, hsum]
  rfl

end Cert.ReferenceIdeal.RefValue

end
-- ==== Proof.BinRange.lean ====
/-
  The bin word is below 441, for every argument. Each of its two halves is the conversion to a 32-bit signed word of
  min 20 (max 0 t) for some extended real t. That value lies between 0 and 20, so it is a real number r with
  0 ≤ r ≤ 20; the conversion truncates toward zero and clamps to the signed 32-bit range, and the truncation of r is
  ⌊r⌋, an integer between 0 and 20, which the clamp leaves alone. So each half, read as a natural number, is at most
  20, and 21 · a + b with a, b ≤ 20 is at most 440: far below 2^32, so neither the product nor the sum wraps.
-/
import proofs.«104885_j67791763800580_2_alg».proof.Proof.RefReadP
import Idealize.ShloMosaic.PureOps.Ideal

noncomputable section

namespace Cert.ReferenceIdeal.BinRange

open Cert.ReferenceIdeal Cert.ReferenceIdeal.ReadP Idealize.ShloMosaic

/-- The conversion to a signed 32-bit word of an extended real between 0 and 20 is, as a natural number, at most 20. -/
theorem fptosi_toNat_le (e : EReal) (h0 : 0 ≤ e) (h20 : e ≤ ((20 : ℝ) : EReal)) :
    (Ideal.fptosi 32 e).toNat ≤ 20 := by
  induction e using EReal.rec with
  | bot => simp at h0
  | top => simp at h20
  | coe r =>
    have hr0 : (0 : ℝ) ≤ r := by exact_mod_cast h0
    have hr20 : r ≤ 20 := by exact_mod_cast h20
    have hf0 : 0 ≤ ⌊r⌋ := Int.floor_nonneg.2 hr0
    have hf20 : ⌊r⌋ ≤ 20 := by
      have h : ⌊r⌋ ≤ ⌊(20 : ℝ)⌋ := Int.floor_le_floor hr20
      simpa using h
    unfold Ideal.fptosi
    rw [Ideal.toIntClamped_coe, if_pos hr0, BitVec.toNat_ofInt]
    omega

/-- The same for the clip of any extended real to [0, 20], in the form the program's operations give it. -/
theorem fptosi_clip_toNat_le (t : EReal) :
    (FloatOps.fptosi (F := Ideal) 32 (FloatOps.minimumf (F := Ideal) (φ := .f32) (FloatOps.sitofp (F := Ideal) .f32 (20#32 : BitVec 32))
      (FloatOps.maximumf (F := Ideal) (φ := .f32) (FloatOps.sitofp (F := Ideal) .f32 (0#32 : BitVec 32)) t))).toNat ≤ 20 := by
  have e20 : FloatOps.sitofp (F := Ideal) .f32 (20#32 : BitVec 32) = ((20 : ℝ) : EReal) := by
    show (((20#32 : BitVec 32).toInt : ℝ) : EReal) = ((20 : ℝ) : EReal)
    have h : (20#32 : BitVec 32).toInt = 20 := by decide
    rw [h]
    norm_num
  have e0 : FloatOps.sitofp (F := Ideal) .f32 (0#32 : BitVec 32) = (0 : EReal) := by
    show (((0#32 : BitVec 32).toInt : ℝ) : EReal) = (0 : EReal)
    have h : (0#32 : BitVec 32).toInt = 0 := by decide
    rw [h]
    norm_num
  rw [e20, e0]
  show (Ideal.fptosi 32 (min ((20 : ℝ) : EReal) (max (0 : EReal) t))).toNat ≤ 20
  refine fptosi_toNat_le _ (le_min ?_ (le_max_left _ _)) (min_le_left _ _)
  exact_mod_cast (by norm_num : (0 : ℝ) ≤ 20)

/-- Every entry of the converted array is, as a natural number, at most 20. -/
theorem word_le (x1 : FVec Ideal S8x2x128x128 .f32) (i : S8x2x128x128.Idx) :
    (val_main_v6 (F := Ideal) x1 i).toNat ≤ 20 := by
  rw [val_main_v6_apply, val_main_v5_apply, val_main_call0_v4_apply, val_main_call0_v3_apply, val_main_c_1_apply,
    val_main_call0_v2_apply, val_main_call0_v1_apply, val_main_call0_v0_apply, val_main_c_apply]
  exact fptosi_clip_toNat_le _

/-- The bin word, read as a natural number, is below 441. -/
theorem bin_lt (x1 : FVec Ideal Cert.ReferenceIdeal.S8x2x128x128 .f32) (j : Cert.ReferenceIdeal.S8x128x128.Idx) :
    (Cert.ReferenceIdeal.ReadP.val_main_v13 (F := Ideal) x1 j).toNat < 441 := by
  rw [val_main_v13_apply, val_main_v10_apply, val_main_v8_apply, val_main_v7_apply, val_main_v9_apply, val_main_c_2_apply,
    val_main_v12_apply, val_main_v11_apply]
  have ha := word_le x1 (idx_main_v7 (idx_main_v8 j))
  have hb := word_le x1 (idx_main_v11 (idx_main_v12 j))
  generalize val_main_v6 (F := Ideal) x1 (idx_main_v7 (idx_main_v8 j)) = a at ha
  generalize val_main_v6 (F := Ideal) x1 (idx_main_v11 (idx_main_v12 j)) = b at hb
  show (a * 21#32 + b).toNat < 441
  rw [BitVec.toNat_add, BitVec.toNat_mul]
  have : (21#32 : BitVec 32).toNat = 21 := rfl
  rw [this]
  have h1 : a.toNat * 21 % 2 ^ 32 = a.toNat * 21 := Nat.mod_eq_of_lt (by omega)
  rw [h1]
  have h2 : (a.toNat * 21 + b.toNat) % 2 ^ 32 = a.toNat * 21 + b.toNat := Nat.mod_eq_of_lt (by omega)
  rw [h2]
  omega

end Cert.ReferenceIdeal.BinRange

end
-- ==== Proof.Pieces.lean ====
/-
  What each control case of the kernel body leaves behind, as values.

  The body keeps a running 128×128 accumulator in scratch memory. At the first bin tile of an image it stores
  zeros and then adds the tile's contribution; at the later tiles it adds to what the tile before left; at
  the last tile it also stores, into the output block, minus the column sums of the logarithm of the
  accumulator. Each lemma below reads the stores the run found back as one of the body's pure terms.
-/
import proofs.«104885_j67791763800580_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- A later tile (not the first, not the last): the accumulator ends at the tile's contribution added to what it held. -/
theorem scratch_B (c : Dev nD) (i : grid0.Coords) (a2 : Memref sig .tc .vmem S1x128x128 .i32) (h2 : a2.IsWhole)
    (a3 : Memref sig .tc .vmem S1x147x128x128 .f32) (h3 : a3.IsWhole) (a4 : Memref sig .tc .vmem S1x1x128 .f32) (h4 : a4.IsWhole)
    (a5 : Memref sig .tc .vmem S128x128 .f32) (h5 : a5.IsWhole) (hc0 : ¬cond0_0 i) (hc1 : ¬cond0_1 i)
    (x0 : Vec F S1x128x128 .i32) (x1 : Vec F S1x147x128x128 .f32) (xs0 : Vec F S128x128 .f32) :
    sout0_B_0 c i a2 h2 a3 h3 a4 h4 a5 h5 hc0 hc1 x0 x1 xs0 = k0_pay2 i x1 x0 xs0 := by
  unfold sout0_B_0
  rw [View.read_writes_eq_canon _ _ _ (scover0_B_0 c i a2 h2 a3 h3 a4 h4 a5 h5 hc0 hc1 x0 x1 xs0)]
  unfold kernelRun0_B
  dsimp only
  rw [View.canon_unit_zero hz2]
  simp only [View.readAt_eq_ld, h2.read_unread, h3.read_unread, h5.read_unread,
    View.ld_unit_zero (S := S1x147x128x128) hz4, View.ld_unit_zero (S := S1x128x128) hz3, View.ld_unit_zero (S := S128x128) hz2]

/-- The first tile: zeros are stored, read back, and the tile's contribution added to them. -/
theorem scratch_A (c : Dev nD) (i : grid0.Coords) (a2 : Memref sig .tc .vmem S1x128x128 .i32) (h2 : a2.IsWhole)
    (a3 : Memref sig .tc .vmem S1x147x128x128 .f32) (h3 : a3.IsWhole) (a4 : Memref sig .tc .vmem S1x1x128 .f32) (h4 : a4.IsWhole)
    (a5 : Memref sig .tc .vmem S128x128 .f32) (h5 : a5.IsWhole) (hc0 : cond0_0 i) (hc1 : ¬cond0_1 i)
    (x0 : Vec F S1x128x128 .i32) (x1 : Vec F S1x147x128x128 .f32) :
    sout0_A_0 c i a2 h2 a3 h3 a4 h4 a5 h5 hc0 hc1 x0 x1 = k0_pay2 i x1 x0 k0_pay1 := by
  unfold sout0_A_0
  rw [View.read_writes_eq_canon _ _ _ (scover0_A_0 c i a2 h2 a3 h3 a4 h4 a5 h5 hc0 hc1 x0 x1)]
  unfold kernelRun0_A
  dsimp only
  sl_unfold_words
  rw [View.canon_cons_unit_zero (S := S128x128) hz2, View.readCov_unit_zero (S := S128x128) _ hz2]
  simp only [View.readAt_eq_ld, h2.read_unread, h3.read_unread,
    View.ld_unit_zero (S := S1x147x128x128) hz4, View.ld_unit_zero (S := S1x128x128) hz3, View.ld_unit_zero (S := S128x128) hz2]

/-- The last tile, the accumulator: as at any later tile. -/
theorem scratch_C (c : Dev nD) (i : grid0.Coords) (a2 : Memref sig .tc .vmem S1x128x128 .i32) (h2 : a2.IsWhole)
    (a3 : Memref sig .tc .vmem S1x147x128x128 .f32) (h3 : a3.IsWhole) (a4 : Memref sig .tc .vmem S1x1x128 .f32) (h4 : a4.IsWhole)
    (a5 : Memref sig .tc .vmem S128x128 .f32) (h5 : a5.IsWhole) (hc0 : ¬cond0_0 i) (hc1 : cond0_1 i)
    (x0 : Vec F S1x128x128 .i32) (x1 : Vec F S1x147x128x128 .f32) (xs0 : Vec F S128x128 .f32) :
    sout0_C_0 c i a2 h2 a3 h3 a4 h4 a5 h5 hc0 hc1 x0 x1 xs0 = k0_pay2 i x1 x0 xs0 := by
  unfold sout0_C_0
  rw [View.read_writes_eq_canon _ _ _ (scover0_C_0 c i a2 h2 a3 h3 a4 h4 a5 h5 hc0 hc1 x0 x1 xs0)]
  unfold kernelRun0_C
  dsimp only
  sl_unfold_words
  rw [View.canon_unit_zero hz2]
  simp only [View.readAt_eq_ld, h2.read_unread, h3.read_unread, h5.read_unread,
    View.ld_unit_zero (S := S1x147x128x128) hz4, View.ld_unit_zero (S := S1x128x128) hz3, View.ld_unit_zero (S := S128x128) hz2]

/-- The last tile, the output block: the finishing term of the accumulator just stored. -/
theorem out_C (c : Dev nD) (i : grid0.Coords) (a2 : Memref sig .tc .vmem S1x128x128 .i32) (h2 : a2.IsWhole)
    (a3 : Memref sig .tc .vmem S1x147x128x128 .f32) (h3 : a3.IsWhole) (a4 : Memref sig .tc .vmem S1x1x128 .f32) (h4 : a4.IsWhole)
    (a5 : Memref sig .tc .vmem S128x128 .f32) (h5 : a5.IsWhole) (hc0 : ¬cond0_0 i) (hc1 : cond0_1 i)
    (x0 : Vec F S1x128x128 .i32) (x1 : Vec F S1x147x128x128 .f32) (xs0 : Vec F S128x128 .f32) :
    out0_C_2 c i a2 h2 a3 h3 a4 h4 a5 h5 hc0 hc1 x0 x1 xs0 = k0_pay3 (k0_pay2 i x1 x0 xs0) := by
  unfold out0_C_2
  rw [View.read_writes_eq_canon _ _ _ (cover0_C_2 c i a2 h2 a3 h3 a4 h4 a5 h5 hc0 hc1 x0 x1 xs0)]
  unfold kernelRun0_C
  dsimp only
  sl_unfold_words
  rw [View.canon_unit_zero hz3, View.readCov_unit_zero (S := S128x128) _ hz2]
  simp only [View.readAt_eq_ld, h2.read_unread, h3.read_unread, h5.read_unread,
    View.ld_unit_zero (S := S1x147x128x128) hz4, View.ld_unit_zero (S := S1x128x128) hz3, View.ld_unit_zero (S := S128x128) hz2]

end Cert.KernelIdeal.Pieces

end
-- ==== Proof.Payload.lean ====
/-
  The body's three pure terms, read at an index at the ideal instance.

  The zero block is 0 everywhere. The accumulation step at pixel (h, w) adds to the old accumulator the sum,
  over the 147 bins b of the tile, of the probability x[b, h, w] where the pixel's bin word equals the
  tile's first bin number plus b, and 0 elsewhere. The finishing step at column w is 0 minus the sum over
  the 128 rows h of the logarithm of the accumulator at (h, w).
-/
import proofs.«104885_j67791763800580_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws
import Idealize.ShloMosaic.Lib.Affine

noncomputable section

open scoped BigOperators

namespace Cert.KernelIdeal.Payload

open Cert.KernelIdeal Cert.KernelIdeal.Gen Idealize.ShloMosaic Idealize.ShloMosaic.ValueIdx

/-- A reduced index of the 128×128 accumulator with bin `k` of the tile put back is (k, h, w). -/
theorem lift_bins (hr : S147x128x128.Reduces [0] S128x128) (h w : Fin 128) (k : Fin (S147x128x128.size 0)) :
    hr.lift (ix2 h w) k = ix3 (⟨k.val, k.isLt⟩ : Fin 147) h w := by
  funext c; apply Fin.ext
  fin_cases c <;> rfl

/-- A column of the 128×128 array with row `k` put back is (k, w). -/
theorem lift_rows (hr : S128x128.Reduces [0] S128) (w : Fin 128) (k : Fin (S128x128.size 0)) :
    hr.lift (ix1 w) k = ix2 (⟨k.val, k.isLt⟩ : Fin 128) w := by
  funext c; apply Fin.ext
  fin_cases c <;> rfl

/-- A sum over the bins of a tile: the lane reduction over the leading axis of the 147×128×128 array. -/
theorem sum_bins (src : FVec Ideal S147x128x128 .f32) (hr : S147x128x128.Reduces [0] S128x128) (hφ : FKind.Formats FTy.f32)
    (hacc : (0x00000000#32 : BitVec 32) = 0x00000000#32) (h w : Fin 128) :
    multiReduction .add [0] S128x128 src 0x00000000#32 hr hφ hacc (ix2 h w) = ∑ b : Fin 147, src (ix3 b h w) :=
  (Ideal.multiReduction_add_single src 0x00000000#32 hr hφ hacc (ix2 h w)).trans
    (show (∑ k : Fin 147, src (hr.lift (ix2 h w) k)) = _ from
      Finset.sum_congr rfl fun k _ => congrArg src (lift_bins hr h w k))

/-- A sum down a column: the lane reduction over the rows of the 128×128 array. -/
theorem sum_rows (src : FVec Ideal S128x128 .f32) (hr : S128x128.Reduces [0] S128) (hφ : FKind.Formats FTy.f32)
    (hacc : (0x00000000#32 : BitVec 32) = 0x00000000#32) (w : Fin 128) :
    multiReduction .add [0] S128 src 0x00000000#32 hr hφ hacc (ix1 w) = ∑ h : Fin 128, src (ix2 h w) :=
  (Ideal.multiReduction_add_single src 0x00000000#32 hr hφ hacc (ix1 w)).trans
    (show (∑ k : Fin 128, src (hr.lift (ix1 w) k)) = _ from
      Finset.sum_congr rfl fun k _ => congrArg src (lift_rows hr w k))

/-- One 128×128 plane repeated over the 147 bins: bin b of the copy is the plane. -/
theorem spread_plane {α : Type} (v : S1x128x128.Idx → α) (hb : S1x128x128.Broadcasts S147x128x128)
    (b : Fin 147) (h w : Fin 128) : broadcastTo S147x128x128 v hb (ix3 b h w) = v (ix3 (0 : Fin 1) h w) := by
  refine broadcastTo_apply v hb (ix3 b h w) (ix3 (0 : Fin 1) h w) fun ax => ?_
  match ax with
  | ⟨0, _⟩ => rfl
  | ⟨1, _⟩ => rfl
  | ⟨2, _⟩ => rfl

/-- One number per bin repeated over the pixels: pixel (h, w) of bin b is the bin's number. -/
theorem spread_bins {α : Type} (v : S147x1x1.Idx → α) (hb : S147x1x1.Broadcasts S147x128x128)
    (b : Fin 147) (h w : Fin 128) : broadcastTo S147x128x128 v hb (ix3 b h w) = v (ix3 b (0 : Fin 1) (0 : Fin 1)) := by
  refine broadcastTo_apply v hb (ix3 b h w) (ix3 b (0 : Fin 1) (0 : Fin 1)) fun ax => ?_
  match ax with
  | ⟨0, _⟩ => rfl
  | ⟨1, _⟩ => rfl
  | ⟨2, _⟩ => rfl

/-- The zero block. -/
theorem pay1_apply (j : S128x128.Idx) : k0_pay1 (F := Ideal) j = 0 := by
  unfold k0_pay1
  rw [shapeCast_self]
  exact Ideal.ofBits_zero_f32

/-- The accumulation step at a pixel. -/
theorem pay2_apply (i : grid0.Coords) (v3 : Vec Ideal S1x147x128x128 .f32) (v5 : Vec Ideal S1x128x128 .i32)
    (v17 : Vec Ideal S128x128 .f32) (h w : Fin 128) :
    k0_pay2 (F := Ideal) i v3 v5 v17 (ix2 h w)
      = v17 (ix2 h w) + ∑ b : Fin 147,
          (if (v5 (ix3 (0 : Fin 1) h w) : BitVec 32) = BitVec.ofNat 32 (i 1).val * 147#32 + BitVec.ofNat 32 b.val
            then (v3 (ix4 (0 : Fin 1) b h w) : EReal) else 0) := by
  unfold k0_pay2
  rw [shapeCast_self, addf_apply, sum_bins]
  refine congrArg (v17 (ix2 h w) + ·) (Finset.sum_congr rfl fun b _ => ?_)
  rw [select_apply, shapeCast_1abc_abc_apply, broadcast_apply]
  show Scalar.select (IntOp.cmpi .eq (broadcastTo S147x128x128 _ _ (ix3 b h w)) (broadcastTo S147x128x128 _ _ (ix3 b h w))) _ _ = _
  rw [spread_plane, spread_bins, shapeCast_ab_1ab_apply, shapeCast_1ab_ab_apply]
  show Scalar.select (IntOp.cmpi .eq _ (IntOp.addi _ (iota Kind.tc S147x1x1 32 [0] _ _))) _ _ = _
  rw [iota_single_apply]
  unfold Scalar.select
  rw [show (FloatOps.ofBits (F := Ideal) FTy.f32 0#32 : Ideal FTy.f32) = (0 : EReal) from Ideal.ofBits_zero_f32]
  exact if_congr IntOp.cmpi_eq rfl rfl

/-- The finishing step at a column. -/
theorem pay3_apply (v26 : Vec Ideal S128x128 .f32) (w : Fin 128) :
    k0_pay3 (F := Ideal) v26 (ix3 (0 : Fin 1) (0 : Fin 1) w)
      = 0 - ∑ h : Fin 128, Ideal.log (v26 (ix2 h w)) := by
  unfold k0_pay3
  rw [shapeCast_ab_1ab_apply, subf_apply, shapeCast_a_1a_apply, sum_rows, broadcast_apply]
  refine congrArg₂ (· - ·) Ideal.ofBits_zero_f32 (Finset.sum_congr rfl fun h _ => ?_)
  rfl

end Cert.KernelIdeal.Payload

end
-- ==== Proof.Steps.lean ====
/-
  What the accumulator and the output block hold after each grid point, as values of the arrays.

  Grid point t works on image n = t / 3 and bin tile q = t % 3. The bin-word block it sees is the words of image n;
  the probability block is bins 147 q … 147 q + 146 of image n. At q = 0 the accumulator becomes 0 plus the tile's
  masked sum, at q = 1, 2 the old accumulator plus the tile's masked sum, and at q = 2 the output block becomes
  0 minus the column sums of the logarithm of the accumulator.
-/
import proofs.«104885_j67791763800580_2_alg».proof.Proof.Pieces
import proofs.«104885_j67791763800580_2_alg».proof.Proof.Payload

noncomputable section

open scoped BigOperators

namespace Cert.KernelIdeal.Steps

open Cert.KernelIdeal Cert.KernelIdeal.Gen Idealize.ShloMosaic Idealize.ShloMosaic.ValueIdx Idealize.ShloMosaic.TcCoe
open Idealize.ShloMosaic.Pipeline (Dat)

variable (m : (ℓ : Loc nD τ sig) → Buf (Elt Ideal) ℓ)

/-- The probability array read at image n, pixel (h, w) and a bin given as a natural number (0 outside the 441 bins). -/
def xAt (X : S8x441x128x128.Idx → EReal) (n : Fin 8) (h w : Fin 128) (j : ℕ) : EReal :=
  if hj : j < 441 then X (ix4 n ⟨j, hj⟩ h w) else 0

/-- A tile's masked sum at a pixel: the probability of the one bin of tile q whose number is the pixel's word, if any. -/
def tile (X : S8x441x128x128.Idx → EReal) (K : S8x128x128.Idx → BitVec 32) (n : Fin 8) (h w : Fin 128) (q : ℕ) : EReal :=
  ∑ b : Fin 147, if K (ix3 n h w) = BitVec.ofNat 32 q * 147#32 + BitVec.ofNat 32 b.val then xAt X n h w (q * 147 + b.val) else 0

/-- The index maps, decided over the 24 grid points: image t / 3 on the leading axis, tile t % 3 on the bin axis. -/
theorem idx_facts : ∀ t : Fin cfg0.N,
    win0_0.index t (0 : Fin 3) = t.val / 3 ∧ win0_0.index t (1 : Fin 3) = 0 ∧ win0_0.index t (2 : Fin 3) = 0
    ∧ win0_1.index t (0 : Fin 4) = t.val / 3 ∧ win0_1.index t (1 : Fin 4) = t.val % 3
    ∧ win0_1.index t (2 : Fin 4) = 0 ∧ win0_1.index t (3 : Fin 4) = 0
    ∧ win0_2.index t (0 : Fin 3) = t.val / 3 ∧ win0_2.index t (1 : Fin 3) = 0 ∧ win0_2.index t (2 : Fin 3) = 0
    ∧ ((grid0.coords t) 1).val = t.val % 3 :=
  (by decide +kernel : ∀ t : Fin grid0.N, _)

/-- The word block at point t is the words of image t / 3. -/
theorem words_blk (c : Dev nD) (t : Fin cfg0.N) (n : Fin 8) (hn : n.val = t.val / 3) (h w : Fin 128) :
    (iblk m c 0 t (ix3 (0 : Fin 1) h w) : BitVec 32) = V m c main_v13 (ix3 n h w) := by
  obtain ⟨e0, e1, e2, -⟩ := idx_facts t
  unfold iblk
  rw [View.read_apply]
  show V m c main_v13 _ = V m c main_v13 _
  congr 1
  funext a; apply Fin.ext
  match a with
  | ⟨0, _⟩ => show win0_0.index t (0 : Fin 3) * 1 + 1 * 0 = n.val; omega
  | ⟨1, _⟩ => show win0_0.index t (1 : Fin 3) * 128 + 1 * h.val = h.val; omega
  | ⟨2, _⟩ => show win0_0.index t (2 : Fin 3) * 128 + 1 * w.val = w.val; omega

/-- The probability block at point t is bins 147 (t % 3) + b of image t / 3. -/
theorem probs_blk (c : Dev nD) (t : Fin cfg0.N) (n : Fin 8) (hn : n.val = t.val / 3) (q : ℕ) (hq : q = t.val % 3)
    (b : Fin 147) (h w : Fin 128) :
    (iblk m c 1 t (ix4 (0 : Fin 1) b h w) : EReal) = xAt (V m c main_arg0) n h w (q * 147 + b.val) := by
  obtain ⟨-, -, -, e0, e1, e2, e3, -⟩ := idx_facts t
  have hb : b.val < 147 := b.isLt
  have hj : q * 147 + b.val < 441 := by omega
  unfold xAt
  rw [dif_pos hj]
  unfold iblk
  rw [View.read_apply]
  show V m c main_arg0 _ = V m c main_arg0 _
  congr 1
  funext a; apply Fin.ext
  match a with
  | ⟨0, _⟩ => show win0_1.index t (0 : Fin 4) * 1 + 1 * 0 = n.val; omega
  | ⟨1, _⟩ => show win0_1.index t (1 : Fin 4) * 147 + 1 * b.val = q * 147 + b.val; omega
  | ⟨2, _⟩ => show win0_1.index t (2 : Fin 4) * 128 + 1 * h.val = h.val; omega
  | ⟨3, _⟩ => show win0_1.index t (3 : Fin 4) * 128 + 1 * w.val = w.val; omega

/-- One accumulation step at point t, at a pixel: the old value plus the tile's masked sum. -/
theorem step_apply (c : Dev nD) (t : Fin cfg0.N) (n : Fin 8) (hn : n.val = t.val / 3) (q : ℕ) (hq : q = t.val % 3)
    (old : Vec Ideal S128x128 .f32) (h w : Fin 128) :
    k0_pay2 (F := Ideal) (grid0.coords t) (iblk m c 1 t) (iblk m c 0 t) old (ix2 h w)
      = old (ix2 h w) + tile (V m c main_arg0) (V m c main_v13) n h w q := by
  refine (Payload.pay2_apply (grid0.coords t) (iblk m c 1 t) (iblk m c 0 t) old h w).trans ?_
  refine congrArg (old (ix2 h w) + ·) ?_
  unfold tile
  refine Finset.sum_congr rfl fun b _ => ?_
  have eq : ((grid0.coords t) 1).val = q := by
    obtain ⟨-, -, -, -, -, -, -, -, -, -, e⟩ := idx_facts t; omega
  rw [words_blk m c t n hn h w, probs_blk m c t n hn q hq b h w, eq]

/-- After a first-tile point the accumulator is the step from zeros. -/
theorem acc_first (c : Dev nD) (t : Fin cfg0.N) (h0 : t.val % 3 = 0) :
    (outsAt0 m c t.val t.isLt).2 = k0_pay2 (grid0.coords t) (iblk m c 1 t) (iblk m c 0 t) (k0_pay1 (F := Ideal)) := by
  have h1 : ¬t.val % 3 = 2 := by omega
  rw [outsAt0_A m c t h0 h1]
  dsimp only
  exact Pieces.scratch_A (F := Ideal) c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk m c 0 t) (iblk m c 1 t)

/-- After a middle-tile point the accumulator is the step from what the point before left. -/
theorem acc_mid (c : Dev nD) (t : Fin cfg0.N) (h0 : ¬t.val % 3 = 0) (h1 : ¬t.val % 3 = 2) :
    (outsAt0 m c t.val t.isLt).2 = k0_pay2 (grid0.coords t) (iblk m c 1 t) (iblk m c 0 t)
      (outsAt0 m c (t.val - 1) (Nat.lt_of_le_of_lt (Nat.sub_le _ _) t.isLt)).2 := by
  rw [outsAt0_B m c t h0 h1]
  dsimp only
  exact Pieces.scratch_B (F := Ideal) c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk m c 0 t) (iblk m c 1 t)
    (outsAt0 m c (t.val - 1) (Nat.lt_of_le_of_lt (Nat.sub_le _ _) t.isLt)).2

/-- After a last-tile point the output block is the finishing term of the step from what the point before left. -/
theorem out_last (c : Dev nD) (t : Fin cfg0.N) (h0 : ¬t.val % 3 = 0) (h1 : t.val % 3 = 2) :
    (outsAt0 m c t.val t.isLt).1 = k0_pay3 (k0_pay2 (grid0.coords t) (iblk m c 1 t) (iblk m c 0 t)
      (outsAt0 m c (t.val - 1) (Nat.lt_of_le_of_lt (Nat.sub_le _ _) t.isLt)).2) := by
  rw [outsAt0_C m c t h0 h1]
  dsimp only
  exact Pieces.out_C (F := Ideal) c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t)
    (outsAt0 m c (t.val - 1) (Nat.lt_of_le_of_lt (Nat.sub_le _ _) t.isLt)).2

/-- The accumulator of image n at a pixel once its three tiles are in: from 0, the three masked sums in order. -/
def acc3 (X : S8x441x128x128.Idx → EReal) (K : S8x128x128.Idx → BitVec 32) (n : Fin 8) (h w : Fin 128) : EReal :=
  ((0 + tile X K n h w 0) + tile X K n h w 1) + tile X K n h w 2

/-- The output block after the last tile's point of image n, at column w: 0 minus the column sum of the logarithms of
    the accumulators. -/
theorem out_value (c : Dev nD) (t : Fin cfg0.N) (h2 : t.val % 3 = 2) (n : Fin 8) (hn : n.val = t.val / 3) (w : Fin 128) :
    (outsAt0 m c t.val t.isLt).1 (ix3 (0 : Fin 1) (0 : Fin 1) w)
      = 0 - ∑ h : Fin 128, Ideal.log (acc3 (V m c main_arg0) (V m c main_v13) n h w) := by
  have hN : cfg0.N = 24 := N_0
  have ht : t.val < 24 := lt_of_lt_of_eq t.isLt hN
  have l1 : t.val - 1 < cfg0.N := by omega
  have l0 : t.val - 2 < cfg0.N := by omega
  rw [out_last m c t (by omega) h2]
  refine (Payload.pay3_apply _ w).trans ?_
  refine congrArg (0 - ·) (Finset.sum_congr rfl fun h _ => congrArg Ideal.log ?_)
  unfold acc3
  refine (step_apply m c t n hn 2 (by omega) _ h w).trans ?_
  refine congrArg (· + tile (V m c main_arg0) (V m c main_v13) n h w 2) ?_
  have e1 := acc_mid m c ⟨t.val - 1, l1⟩ (by show ¬(t.val - 1) % 3 = 0; omega) (by show ¬(t.val - 1) % 3 = 2; omega)
  refine (congrFun e1 (ix2 h w)).trans ?_
  refine (step_apply m c ⟨t.val - 1, l1⟩ n (by show n.val = (t.val - 1) / 3; omega) 1 (by show 1 = (t.val - 1) % 3; omega) _ h w).trans ?_
  refine congrArg (· + tile (V m c main_arg0) (V m c main_v13) n h w 1) ?_
  have e0 := acc_first m c ⟨t.val - 2, l0⟩ (by show (t.val - 2) % 3 = 0; omega)
  have e00 : (outsAt0 m c ((⟨t.val - 1, l1⟩ : Fin cfg0.N).val - 1) (Nat.lt_of_le_of_lt (Nat.sub_le _ _) (⟨t.val - 1, l1⟩ : Fin cfg0.N).isLt))
      = outsAt0 m c (⟨t.val - 2, l0⟩ : Fin cfg0.N).val (⟨t.val - 2, l0⟩ : Fin cfg0.N).isLt := by
    congr 1
  rw [e00]
  refine (congrFun e0 (ix2 h w)).trans ?_
  refine (step_apply m c ⟨t.val - 2, l0⟩ n (by show n.val = (t.val - 2) / 3; omega) 0 (by show 0 = (t.val - 2) % 3; omega) _ h w).trans ?_
  refine congrArg (· + tile (V m c main_arg0) (V m c main_v13) n h w 0) ?_
  exact Payload.pay1_apply _

end Cert.KernelIdeal.Steps

end
-- ==== Proof.OutArray.lean ====
/-
  The kernel's output array after the run, and the program's result.

  Only the last tile's point of each image writes its output block back, and that block is row n of the 8×1×128
  array; the eight of them cover it. So the array ends, at (n, 0, w), at 0 minus the column sum of the logarithms of
  image n's accumulators, and the host's sum over the images, from 0, is the result at column w.
-/
import proofs.«104885_j67791763800580_2_alg».proof.Proof.Steps
import Idealize.ShloMosaic.Lib.Pipeline.Value
import Idealize.ShloMosaic.Lib.StableHlo.Run

noncomputable section

open scoped BigOperators

namespace Cert.KernelIdeal.OutArray

open Cert.KernelIdeal Cert.KernelIdeal.Gen Idealize.ShloMosaic Idealize.ShloMosaic.ValueIdx Idealize.ShloMosaic.TcCoe Idealize.SL.Sem
open Idealize.ShloMosaic.Pipeline (Dat)
open Cert.KernelIdeal.Steps (acc3 idx_facts)

variable (m : (ℓ : Loc nD τ sig) → Buf (Elt Ideal) ℓ) (ρ : Dev nD → PrngReg)

/-- What the output array holds at (n, 0, w): 0 minus the sum over the rows of the logarithm of the accumulator. -/
def perImage (X : S8x441x128x128.Idx → EReal) (K : S8x128x128.Idx → BitVec 32) : S8x1x128.Idx → EReal :=
  fun i => 0 - ∑ h : Fin 128, Ideal.log (acc3 X K (i 0) h (i 2))

/-- What a flushing point writes back is its block of `perImage`. -/
theorem flushed_eq (c : Dev nD) (t : Fin cfg0.N) (hf : (cfg0.win 2).flush t = true) :
    (dats m 0 c).flushed 2 t = ((cfg0.win 2).blk t).view.read (Elt Ideal) (perImage (V m c main_arg0) (V m c main_v13)) := by
  have h2 : t.val % 3 = 2 := (flush0_2 t).mp hf
  have hN : cfg0.N = 24 := N_0
  have ht : t.val < 24 := lt_of_lt_of_eq t.isLt hN
  obtain ⟨-, -, -, -, -, -, -, e0, e1, e2, -⟩ := idx_facts t
  show (cfg0.win 2).cut (grid0.coords t) ((dats m 0 c).after 2 t) = _
  rw [after0_2]
  funext (j : S1x1x128.Idx)
  obtain ⟨u, v, w, rfl⟩ : ∃ (u : Fin 1) (v : Fin 1) (w : Fin 128), j = ix3 u v w := ⟨j 0, j 1, j 2, eq_ix3 j⟩
  obtain rfl : u = 0 := Subsingleton.elim _ _
  obtain rfl : v = 0 := Subsingleton.elim _ _
  rw [View.read_apply]
  show (outsAt0 m c t.val t.isLt).1 (ix3 (0 : Fin 1) (0 : Fin 1) w) = perImage (V m c main_arg0) (V m c main_v13) _
  rw [Steps.out_value m c t h2 ⟨t.val / 3, by omega⟩ rfl w]
  unfold perImage
  have a0 : (((cfg0.win 2).blk t).view.emb (ix3 (0 : Fin 1) (0 : Fin 1) w)) 0 = (⟨t.val / 3, by omega⟩ : Fin 8) := by
    apply Fin.ext
    show win0_2.index t (0 : Fin 3) * 1 + 1 * 0 = t.val / 3
    omega
  have a2 : (((cfg0.win 2).blk t).view.emb (ix3 (0 : Fin 1) (0 : Fin 1) w)) 2 = w := by
    apply Fin.ext
    show win0_2.index t (2 : Fin 3) * 128 + 1 * w.val = w.val
    omega
  rw [a0, a2]

/-- An index of the array is in point t's block iff each coordinate is in the block's range. -/
theorem mem_blk (t : Fin cfg0.N) (i : S8x1x128.Idx) :
    i ∈ ((cfg0.win 2).blk t).view.set ↔ ∀ a : Fin 3, win0_2.index t a * S1x1x128.size a ≤ (i a).val
      ∧ (i a).val < win0_2.index t a * S1x1x128.size a + S1x1x128.size a := by
  show i ∈ ((View.whole main_v14).slice (win0_2.rect t)).set ↔ _
  rw [View.set_slice_whole, Rect.mem_set_unit]
  exact Iff.rfl

/-- The array after the run. -/
theorem final (c : Dev nD) : (dats m 0 c).arrAt 2 cfg0.N = perImage (V m c main_arg0) (V m c main_v13) :=
  (dats m 0 c).arrAt_eq_of_cover 2 (perImage (V m c main_arg0) (V m c main_v13)) (flushed_eq m c) fun i => by
    have hN : cfg0.N = 24 := N_0
    have hi0 : (i 0).val < 8 := (i 0).isLt
    have hi1 : (i 1).val < 1 := (i 1).isLt
    have hi2 : (i 2).val < 128 := (i 2).isLt
    have hlt : 3 * (i 0).val + 2 < cfg0.N := by omega
    refine ⟨⟨3 * (i 0).val + 2, hlt⟩, (flush0_2 _).mpr (by show (3 * (i 0).val + 2) % 3 = 2; omega), ?_⟩
    rw [mem_blk]
    obtain ⟨-, -, -, -, -, -, -, e0, e1, e2, -⟩ := idx_facts ⟨3 * (i 0).val + 2, hlt⟩
    have e0' : win0_2.index ⟨3 * (i 0).val + 2, hlt⟩ (0 : Fin 3) = (3 * (i 0).val + 2) / 3 := e0
    intro a
    match a with
    | ⟨0, _⟩ => show win0_2.index ⟨3 * (i 0).val + 2, hlt⟩ (0 : Fin 3) * 1 ≤ (i 0).val ∧ (i 0).val < win0_2.index ⟨3 * (i 0).val + 2, hlt⟩ (0 : Fin 3) * 1 + 1; omega
    | ⟨1, _⟩ => show win0_2.index ⟨3 * (i 0).val + 2, hlt⟩ (1 : Fin 3) * 1 ≤ (i 1).val ∧ (i 1).val < win0_2.index ⟨3 * (i 0).val + 2, hlt⟩ (1 : Fin 3) * 1 + 1; omega
    | ⟨2, _⟩ => show win0_2.index ⟨3 * (i 0).val + 2, hlt⟩ (2 : Fin 3) * 128 ≤ (i 2).val ∧ (i 2).val < win0_2.index ⟨3 * (i 0).val + 2, hlt⟩ (2 : Fin 3) * 128 + 128; omega

/-- The program's result as the host's lines after the region leave it: the reshape and the sum over the images
    of the array after the run. -/
theorem tail_eq (c : Dev nD) :
    Pipeline.afterTail₀ cfgs (dats m) 0 (V0 m) [hostOps1] c main_v16
      = Host.reduceAdd (shapeCast S8x128 (perImage (V m c main_arg0) (V m c main_v13)) shapeCasts_S8x1x128_S8x128)
          (constant (F := Ideal) S_ .f32 0x00000000#32) reducesTo_S8x128_S128_d0 h_S_ := by
  unfold Pipeline.afterTail₀
  show StableHlo.after hostOps1 _ (Proc.devRef .tc main_v16) = _
  after_results
  have e : Pipeline.withArrays (cfgs 0).spec c (V0 m c) (fun w => (dats m 0 c).arrAt w (cfgs 0).N) (Proc.devRef .tc main_v14)
      = perImage (V m c main_arg0) (V m c main_v13) :=
    (Pipeline.withArrays_arr spec0 launch0.win.arr_inj c _ _ 2).trans (final m c)
  rw [e]
  rfl

end Cert.KernelIdeal.OutArray

end
-- ==== Proof.TailSum.lean ====
/-
  A [8, 1, 128] array with its unit axis dropped, then summed over its first axis from 0, read at a column w: the
  sum over n of the entries (n, 0, w). Dropping a unit axis changes no row-major position, so the [8, 128] array at
  (n, w) is the [8, 1, 128] array at (n, 0, w); a sum over one axis read at w is the initial value plus the sum of
  the entries whose other coordinate is w; and the initial value, the pattern of all zero bits, is 0.
-/
import Idealize.ShloMosaic.PureOps.Ideal.Laws
import Idealize.ShloMosaic.Lib.ValueIdx
import Idealize.ShloMosaic.Lib.ValueLayout
import Idealize.ShloMosaic.Lib.Pipeline.Value

noncomputable section

namespace Cert.TailSum

open Idealize.ShloMosaic Idealize.ShloMosaic.ValueIdx

/-- An [a, 1, b] array cast to [a, b] reads, at (i, j), the operand at (i, 0, j): the two indices have the same
    row-major position, (i · 1 + 0) · b + j = i · b + j. -/
theorem shapeCast_a1b_ab_apply {α : Type} {a b : ℕ} (x : (⟨3, ![a, 1, b]⟩ : Shape).Idx → α)
    (h : (⟨3, ![a, 1, b]⟩ : Shape).ShapeCasts ⟨2, ![a, b]⟩) (i : Fin a) (j : Fin b) :
    shapeCast ⟨2, ![a, b]⟩ x h (ix2 i j) = x (ix3 i (0 : Fin 1) j) :=
  shapeCast_apply x h _ _ (by
    rw [Shape.rowMajor_val_three, Shape.rowMajor_val_two]
    show (i.val * 1 + 0) * b + j.val = i.val * b + j.val
    rw [Nat.mul_one, Nat.add_zero])

/-- The cast [8, 1, 128] → [8, 128] followed by the sum over the first axis from 0, at column w, is
    0 + Σ_n A (n, 0, w). -/
theorem tail_apply (A : FVec Ideal (⟨3, ![8, 1, 128]⟩ : Shape) .f32) (hc : (⟨3, ![8, 1, 128]⟩ : Shape).ShapeCasts ⟨2, ![8, 128]⟩)
    (hr : (⟨2, ![8, 128]⟩ : Shape).ReducesTo [0] ⟨1, ![128]⟩) (hu : 0 < (⟨0, ![]⟩ : Shape).numel) (w : Fin 128) :
    Host.reduceAdd (shapeCast ⟨2, ![8, 128]⟩ A hc) (constant (F := Ideal) (⟨0, ![]⟩ : Shape) .f32 0x00000000#32) hr hu (ix1 w)
      = 0 + ∑ n : Fin 8, A (ix3 n (0 : Fin 1) w) := by
  have hR : (⟨2, ![8, 128]⟩ : Shape).Reduces [0] ⟨1, ![128]⟩ := by decide
  show Ideal.hostReduceAdd hr (shapeCast ⟨2, ![8, 128]⟩ A hc) (Ideal.ofBits .f32 0x00000000#32) (ix1 w) = _
  rw [Ideal.hostReduceAdd_single hr hR, Ideal.ofBits_zero_f32]
  refine congrArg (0 + ·) (Finset.sum_congr rfl fun n _ => ?_)
  have hl : hR.lift (ix1 w) n = ix2 n w := by
    funext c
    apply Fin.ext
    fin_cases c <;> rfl
  rw [hl]
  exact shapeCast_a1b_ab_apply A hc n w

end Cert.TailSum

end
-- ==== Proof.Words.lean ====
/-
  The array of bin words the two programs compute is one array. Both compute it from the second argument y by the
  same operations in the same order: subtract -110, divide by 10, floor, clip to [0, 20], convert to a 32-bit word,
  slice the two channels, drop the unit axis, multiply the first by 21 and add the second. So the contents found in
  the buffer of the last of these operations is the composition of these functions applied to y, on either side.
-/
import proofs.«104885_j67791763800580_2_alg».proof.Proof.Gen.KernelIdeal.Frame
import proofs.«104885_j67791763800580_2_alg».proof.Proof.RefReadP
import Idealize.ShloMosaic.Lib.StableHlo.Run
import Idealize.ShloMosaic.PureOps.Ideal

noncomputable section

namespace Cert.KernelIdeal.Words

open Cert.KernelIdeal Cert.KernelIdeal.Gen Idealize.ShloMosaic Idealize.ShloMosaic.TcCoe Idealize.SL.Sem Idealize.ShloMosaic.StableHlo

/-- The bin-word array, as a function of the second argument, is the same function on both sides. -/
theorem words_eq (m : (ℓ : Loc nD τ sig) → Buf (Elt Ideal) ℓ) (c : Dev nD) :
    (V m c main_v13 : S8x128x128.Idx → BitVec 32)
      = Cert.ReferenceIdeal.ReadP.val_main_v13 (F := Ideal) (m ((c : Thread nD τ).loc main_arg1)) := by
  dsimp only [Gen.V, Gen.V0]
  simp only [Gen.hostOps0, Gen.hostOps0_1, Gen.hostOps0_2, List.flatten_cons, List.flatten_nil, List.append_nil,
    List.cons_append, List.nil_append]
  after_results_simp
  simp only [cast_eq]
  rfl

end Cert.KernelIdeal.Words

end
-- ==== Proof.SpecLaws.lean ====
/-
  Four facts of pure mathematics about picking one bin out of 441 by a 32-bit word, and about signs of sums of
  extended reals.
  The 441 bins are read as three tiles of 147. A word k with value below 441 lies in exactly one tile, the tile
  k / 147, at offset k mod 147; a sum over one tile of "f at the bin if the bin is the one the word names, else 0"
  has at most one nonzero term, and the three tile sums, accumulated from 0, leave f at the bin k names.
  On the extended reals -(x + y) = -x - y fails only when an ∞ meets the opposite ∞; when no term is +∞ no sum is
  +∞, so minus distributes over every sum taken here.
-/
import Mathlib.Data.EReal.Operations
import Mathlib.Algebra.BigOperators.Fin
import Idealize.ShloMosaic.PureOps.Ideal

noncomputable section

namespace Cert.SpecLaws

open Idealize.ShloMosaic

/-- For q < 3 and b < 147 the word q · 147 + b, computed in 32 bits, does not wrap: a word equals it exactly when its
    value is the natural number q · 147 + b. -/
theorem word_eq_iff (k : BitVec 32) (q b : ℕ) (hq : q < 3) (hb : b < 147) :
    k = BitVec.ofNat 32 q * 147#32 + BitVec.ofNat 32 b ↔ k.toNat = q * 147 + b := by
  have hq' : q % 2 ^ 32 = q := Nat.mod_eq_of_lt (by omega)
  have hb' : b % 2 ^ 32 = b := Nat.mod_eq_of_lt (by omega)
  have h1 : q * 147 % 2 ^ 32 = q * 147 := Nat.mod_eq_of_lt (by omega)
  have h2 : (q * 147 + b) % 2 ^ 32 = q * 147 + b := Nat.mod_eq_of_lt (by omega)
  have h147' : 147 % 2 ^ 32 = 147 := by norm_num
  rw [← BitVec.toNat_inj, BitVec.toNat_add, BitVec.toNat_mul]
  simp only [BitVec.toNat_ofNat]
  rw [hq', hb', h147', h1, h2]

/-- one tile of 147 bins: at most one bin of the tile matches the word -/
theorem tile_pick (k : BitVec 32) (hk : k.toNat < 441) (f : ℕ → EReal) (q : ℕ) (hq : q < 3) :
    (∑ b : Fin 147, if k = BitVec.ofNat 32 q * 147#32 + BitVec.ofNat 32 b.val then f (q * 147 + b.val) else 0)
      = if k.toNat / 147 = q then f k.toNat else 0 := by
  have hc : ∀ b : Fin 147, (k = BitVec.ofNat 32 q * 147#32 + BitVec.ofNat 32 b.val) ↔ k.toNat = q * 147 + b.val :=
    fun b => word_eq_iff k q b.val hq b.isLt
  simp only [hc]
  by_cases hd : k.toNat / 147 = q
  · rw [if_pos hd]
    have hlt : k.toNat - q * 147 < 147 := by omega
    rw [Finset.sum_eq_single (⟨k.toNat - q * 147, hlt⟩ : Fin 147)]
    · have e : q * 147 + (k.toNat - q * 147) = k.toNat := by omega
      dsimp only
      rw [e, if_pos rfl]
    · intro b _ hne
      rw [if_neg]
      intro h
      apply hne
      apply Fin.ext
      dsimp only
      omega
    · intro h
      exact absurd (Finset.mem_univ _) h
  · rw [if_neg hd]
    apply Finset.sum_eq_zero
    intro b _
    rw [if_neg]
    intro h
    apply hd
    have := b.isLt
    omega

/-- the three tiles, accumulated in order from 0, pick the one bin the word names -/
theorem three_tiles (k : BitVec 32) (hk : k.toNat < 441) (f : ℕ → EReal) :
    ((0 + ∑ b : Fin 147, if k = BitVec.ofNat 32 0 * 147#32 + BitVec.ofNat 32 b.val then f (0 * 147 + b.val) else 0)
       + ∑ b : Fin 147, if k = BitVec.ofNat 32 1 * 147#32 + BitVec.ofNat 32 b.val then f (1 * 147 + b.val) else 0)
       + (∑ b : Fin 147, if k = BitVec.ofNat 32 2 * 147#32 + BitVec.ofNat 32 b.val then f (2 * 147 + b.val) else 0)
      = f k.toNat := by
  rw [tile_pick k hk f 0 (by omega), tile_pick k hk f 1 (by omega), tile_pick k hk f 2 (by omega)]
  have h3 : k.toNat / 147 = 0 ∨ k.toNat / 147 = 1 ∨ k.toNat / 147 = 2 := by omega
  rcases h3 with h | h | h <;> simp [h]

/-- A finite sum of extended reals none of which is +∞ is not +∞. -/
theorem sum_ne_top {ι : Type} (s : Finset ι) (g : ι → EReal) (hg : ∀ i ∈ s, g i ≠ ⊤) : (∑ i ∈ s, g i) ≠ ⊤ := by
  classical
  induction s using Finset.induction_on with
  | empty => simp
  | insert a s ha ih =>
    rw [Finset.sum_insert ha]
    exact EReal.add_ne_top (hg a (Finset.mem_insert_self a s)) (ih fun i hi => hg i (Finset.mem_insert_of_mem hi))

/-- Minus distributes over a finite sum of extended reals none of which is +∞. -/
theorem neg_sum {ι : Type} (s : Finset ι) (g : ι → EReal) (hg : ∀ i ∈ s, g i ≠ ⊤) :
    -(∑ i ∈ s, g i) = ∑ i ∈ s, -(g i) := by
  classical
  induction s using Finset.induction_on with
  | empty => simp
  | insert a s ha ih =>
    have hs : ∀ i ∈ s, g i ≠ ⊤ := fun i hi => hg i (Finset.mem_insert_of_mem hi)
    rw [Finset.sum_insert ha, Finset.sum_insert ha,
      EReal.neg_add (Or.inr (sum_ne_top s g hs)) (Or.inl (hg a (Finset.mem_insert_self a s))), sub_eq_add_neg, ih hs]

/-- on the extended reals, when no term is +∞, minus distributes over the sums: Σ_n (0 − Σ_h L n h), from 0, is −Σ_n Σ_h L n h -/
theorem neg_sums (L : Fin 8 → Fin 128 → EReal) (hL : ∀ n h, L n h ≠ ⊤) :
    0 + ∑ n : Fin 8, (0 - ∑ h : Fin 128, L n h) = -(∑ n : Fin 8, ∑ h : Fin 128, L n h) := by
  rw [zero_add, neg_sum Finset.univ (fun n => ∑ h : Fin 128, L n h)
    (fun n _ => sum_ne_top Finset.univ (L n) (fun h _ => hL n h))]
  refine Finset.sum_congr rfl fun n _ => ?_
  rw [sub_eq_add_neg, zero_add]

/-- the logarithm of a real number is never +∞ -/
theorem log_real_ne_top (r : ℝ) : Ideal.log (r : EReal) ≠ ⊤ := by
  rw [Ideal.log_coe]
  split_ifs
  · exact bot_ne_top
  · exact EReal.coe_ne_top _

end Cert.SpecLaws

end
-- ==== Proof.KernelLoss.lean ====
/-
  The kernel's accumulator is the picked probability, and its column sums are the specification's loss.

  At a pixel whose bin word is below 441 the three tiles' masked sums, accumulated from 0, leave the probability of the
  one bin the word names: the picked probability of the specification. When every probability is a real number no
  logarithm is +∞, so 0 minus each image's column sum of logarithms, summed over the images from 0, is minus the double
  sum over images and rows: the loss at the column.
-/
import proofs.«104885_j67791763800580_2_alg».proof.Proof.Steps
import proofs.«104885_j67791763800580_2_alg».proof.Proof.SpecLaws
import proofs.«104885_j67791763800580_2_alg».proof.Proof.Spec
import Idealize.ShloMosaic.Lib.ValueIdx
import Idealize.ShloMosaic.PureOps.Ideal

noncomputable section

open scoped BigOperators

namespace Cert.KernelIdeal.KernelLoss

open Idealize.ShloMosaic Idealize.ShloMosaic.ValueIdx

/-- The accumulator of image `n` at pixel `(h, w)`, once its three tiles are in, is the probability of the pixel's own
    bin: the three masked sums pick the bin whose number is the pixel's word, and that number, below 441, is the bin
    the specification reads. -/
theorem acc3_is_picked (X : Cert.KernelIdeal.S8x441x128x128.Idx → EReal) (K : Cert.KernelIdeal.S8x128x128.Idx → BitVec 32)
    (hK : ∀ j, (K j).toNat < 441) (n : Fin 8) (h w : Fin 128) :
    Cert.KernelIdeal.Steps.acc3 X K n h w = Cert.Spec.picked X K n h w := by
  have hk := hK (ix3 n h w)
  refine (Cert.SpecLaws.three_tiles (K (ix3 n h w)) hk (Cert.KernelIdeal.Steps.xAt X n h w)).trans ?_
  unfold Cert.KernelIdeal.Steps.xAt Cert.Spec.picked
  rw [dif_pos hk]
  exact congrArg (fun k => X (ix4 n k h w)) (Fin.ext (Cert.Spec.bin_val K n h w hk).symm)

/-- The kernel's column `w`: from 0, the sum over images of 0 minus the column sum of the logarithms of the accumulators,
    is the loss at `w` when every probability is a real number (no logarithm is then +∞, and minus distributes over the
    sums). -/
theorem column_is_loss (X : Cert.KernelIdeal.S8x441x128x128.Idx → EReal) (K : Cert.KernelIdeal.S8x128x128.Idx → BitVec 32)
    (hK : ∀ j, (K j).toNat < 441) (hX : ∀ i, ∃ r : ℝ, X i = (r : EReal)) (w : Fin 128) :
    0 + ∑ n : Fin 8, (0 - ∑ h : Fin 128, Ideal.log (Cert.KernelIdeal.Steps.acc3 X K n h w)) = Cert.Spec.loss X K (ix1 w) := by
  have hL : ∀ (n : Fin 8) (h : Fin 128), Ideal.log (Cert.Spec.picked X K n h w) ≠ ⊤ := by
    intro n h
    obtain ⟨r, hr⟩ := hX (ix4 n (Cert.Spec.bin K n h w) h w)
    have hp : Cert.Spec.picked X K n h w = (r : EReal) := hr
    rw [hp]
    exact Cert.SpecLaws.log_real_ne_top r
  have h1 : (0 + ∑ n : Fin 8, (0 - ∑ h : Fin 128, Ideal.log (Cert.KernelIdeal.Steps.acc3 X K n h w)))
      = 0 + ∑ n : Fin 8, (0 - ∑ h : Fin 128, Ideal.log (Cert.Spec.picked X K n h w)) := by
    simp only [acc3_is_picked X K hK]
  rw [h1]
  exact Cert.SpecLaws.neg_sums (fun n h => Ideal.log (Cert.Spec.picked X K n h w)) hL

end Cert.KernelIdeal.KernelLoss

end
-- ==== Proof.LibFiniteAll.lean ====
/-
  A general lemma, for a float array of any shape at the extended reals: when the reduction "all entries have absolute
  value strictly below +∞" comes out 1, every entry of the array is a real number. The test takes |x| entry by entry
  (max x (-x)), compares it with +∞ (the pattern 0x7F800000), strictly below, and folds the results with "and" from 1
  over all axes. The fold being 1, every entry's comparison is 1, so max (x i) (-(x i)) < ⊤, so x i is neither ⊤ nor
  ⊥: it is a real number.
-/
import Idealize.ShloMosaic.PureOps.Ideal
import Idealize.ShloMosaic.Lib.ValueIdx
import Idealize.ShloMosaic.Lib.ReduceAll

noncomputable section

namespace Cert.Lib.FiniteAll

open Idealize.ShloMosaic Idealize.ShloMosaic.ValueIdx

/-- The shape with no axes has one index. -/
instance : Subsingleton (⟨0, ![]⟩ : Shape).Idx := ⟨fun a b => funext fun d => d.elim0⟩

/-- The pattern 0x7F800000 denotes +∞. -/
theorem inf_eq_top : Ideal.ofBits .f32 0x7F800000#32 = (⊤ : EReal) := by simp [Ideal.ofBits, Ideal.ieee]

/-- An extended real whose absolute value is strictly below +∞ is a real number. -/
theorem real_of_abs_lt (x : EReal)
    (h : Ideal.cmp .olt (max x (-x)) (Ideal.ofBits .f32 0x7F800000#32) = 1#1) : ∃ r : ℝ, x = (r : EReal) := by
  rw [inf_eq_top] at h
  unfold Ideal.cmp at h
  induction x using EReal.rec with
  | bot => simp at h
  | coe r => exact ⟨r, rfl⟩
  | top => simp at h

/-- The all-of test of one array: when it comes out 1, every entry of the array is a real number. -/
theorem real_of_all {s : Shape} {axes : List (Fin s.rank)} (x : FVec Ideal s .f32)
    (hb : (⟨0, ![]⟩ : Shape).BroadcastsInDim s (![] : Fin 0 → Fin s.rank))
    (hr : s.ReducesTo axes (⟨0, ![]⟩ : Shape)) (hu : 0 < (⟨0, ![]⟩ : Shape).numel)
    (e : Host.reduce IntOp.andi
        (cmpf .olt (Host.absf x) (broadcastInDim s ![] hb (constant (F := Ideal) (⟨0, ![]⟩ : Shape) .f32 0x7F800000#32)))
        (constantI (⟨0, ![]⟩ : Shape) 1 1#1) hr hu ix0 = 1#1)
    (i : s.Idx) : ∃ r : ℝ, x i = (r : EReal) :=
  real_of_abs_lt (x i) (Host.reduce_andi_all _ _ hr hu ix0 e i)

end Cert.Lib.FiniteAll

end
-- ==== Proof.FiniteX.lean ====
/-
  Under the precondition "every entry of both argument arrays has absolute value strictly below +∞", every entry of
  the first argument array (the probabilities) is a real number. The precondition is the conjunction of two all-of
  tests, one per argument; its value being 1, the first test's value is 1, and an all-of test that comes out 1 says
  every entry it folds is 1: every entry's absolute value is strictly below +∞, so the entry is neither +∞ nor -∞.
-/
import proofs.«104885_j67791763800580_2_alg».proof.Defs
import proofs.«104885_j67791763800580_2_alg».proof.Proof.Gen.Pre_finite_inputs
import proofs.«104885_j67791763800580_2_alg».proof.Proof.Gen.KernelIdeal
import proofs.«104885_j67791763800580_2_alg».proof.Proof.LibFiniteAll

noncomputable section

namespace Cert.KernelIdeal.FiniteX

open Idealize.ShloMosaic Idealize.SL.Sem Idealize.ShloMosaic.ValueIdx

/-- Every entry of the first argument array is a real number, on every device, when the precondition holds. -/
theorem x_real (m : (ℓ : Loc Cert.KernelIdeal.nD Cert.KernelIdeal.τ Cert.KernelIdeal.sig) → Buf (Elt Ideal) ℓ)
    (h : Cert.Pre_KernelIdeal (hPre_finite_inputs := Cert.Pre_finite_inputs.Gen.facts) m) (c : Dev Cert.KernelIdeal.nD) (i : Cert.KernelIdeal.S8x441x128x128.Idx) :
    ∃ r : ℝ, m ((c.tc : Thread Cert.KernelIdeal.nD Cert.KernelIdeal.τ).loc Cert.KernelIdeal.main_arg0) i = (r : EReal) := by
  have e := congrFun (h c) ix0
  dsimp only [Cert.Pre_finite_inputs.fn, andi] at e
  obtain ⟨e0, -⟩ := IntOp.andi_eq_one.1 e
  exact Cert.Lib.FiniteAll.real_of_all _ _ _ _ e0 i

end Cert.KernelIdeal.FiniteX

end
-- ==== Proof.Result.lean ====
/-
  The kernel's run, read: its result is the specification's loss of the argument arrays.

  The array the region leaves holds, per image and column, minus the column sum of the logarithms of the accumulators;
  the host's sum over the images gives the result. Every bin word is below 441, so an accumulator is the probability of
  the pixel's own bin; every probability is a real number under the precondition, so no logarithm is +∞ and the minus
  signs move across the sums.
-/
import proofs.«104885_j67791763800580_2_alg».proof.Defs
import proofs.«104885_j67791763800580_2_alg».proof.Proof.OutArray
import proofs.«104885_j67791763800580_2_alg».proof.Proof.TailSum
import proofs.«104885_j67791763800580_2_alg».proof.Proof.Words
import proofs.«104885_j67791763800580_2_alg».proof.Proof.KernelLoss
import proofs.«104885_j67791763800580_2_alg».proof.Proof.BinRange
import proofs.«104885_j67791763800580_2_alg».proof.Proof.FiniteX

noncomputable section

open scoped BigOperators

namespace Cert.KernelIdeal.Result

open Cert.KernelIdeal Cert.KernelIdeal.Gen Idealize.ShloMosaic Idealize.ShloMosaic.ValueIdx Idealize.ShloMosaic.TcCoe Idealize.SL.Sem
open Idealize.ShloMosaic.Pipeline (Dat)

variable (m : (ℓ : Loc nD τ sig) → Buf (Elt Ideal) ℓ) (ρ : Dev nD → PrngReg)

/-- The frame run re-posted: the result at the host's sum of the array the region leaves, the arguments unchanged. -/
theorem run : θ_run defs (onTc (τ := τ) (main (F := Ideal))) ⟨m, fun _ => 0, ρ⟩ fun r => ∀ c : Dev nD,
      r.2.mem ((c : Thread nD τ).loc main_v16)
        = Host.reduceAdd (shapeCast S8x128 (OutArray.perImage (V m c main_arg0) (V m c main_v13)) shapeCasts_S8x1x128_S8x128)
            (constant (F := Ideal) S_ .f32 0x00000000#32) reducesTo_S8x128_S128_d0 h_S_
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
      ⟨((h c).2 main_v16 (Pipeline.mem_restRefs_of main_v16 (by decide) (by decide))).trans (OutArray.tail_eq m c),
        ((h c).1 1).trans (((dats m 0 c).arrAt_in 1 rfl _).trans ((A_eq m c 1).trans (V_main_arg0 m c))),
        ((h c).2 main_arg1 (Pipeline.mem_restRefs_of main_arg1 (by decide) (by decide))).trans (W_main_arg1 m (dats m) c)⟩)
    (run_main m ρ)

/-- Under the precondition that result is the loss of the argument arrays. -/
theorem result_is_loss (hpre : Cert.Pre_KernelIdeal (hPre_finite_inputs := Cert.Pre_finite_inputs.Gen.facts) m) (c : Dev nD) :
    Host.reduceAdd (shapeCast S8x128 (OutArray.perImage (V m c main_arg0) (V m c main_v13)) shapeCasts_S8x1x128_S8x128)
        (constant (F := Ideal) S_ .f32 0x00000000#32) reducesTo_S8x128_S128_d0 h_S_
      = Cert.Spec.loss (m ((c : Thread nD τ).loc main_arg0))
          (Cert.ReferenceIdeal.ReadP.val_main_v13 (F := Ideal) (m ((c : Thread nD τ).loc main_arg1))) := by
  rw [Words.words_eq m c, V_main_arg0 m c]
  funext j
  obtain ⟨w, rfl⟩ : ∃ w : Fin 128, j = ix1 w := ⟨j 0, eq_ix1 j⟩
  refine (Cert.TailSum.tail_apply _ _ _ _ w).trans ?_
  exact KernelLoss.column_is_loss _ _ (fun j => Cert.ReferenceIdeal.BinRange.bin_lt _ j) (fun i => FiniteX.x_real m hpre c i) w

end Cert.KernelIdeal.Result

end
-- ==== Proof.lean ====
/-
  A histogram-binned cross-entropy loss: each pixel's two colour channels name one of 441 bins, and the loss per
  column is minus the sum over images and rows of the logarithm of the probability of the pixel's bin.

  The kernel walks the 441 bins of an image in three tiles of 147, adding to a 128×128 accumulator the probability
  where the pixel's bin word equals the bin's number and 0 elsewhere — so after the three tiles the accumulator is the
  probability of the pixel's own bin —, takes the logarithm once, sums over the rows, negates, and the host adds the
  eight images. The reference takes the logarithm of every probability, gathers the pixel's bin, sums over images and
  rows, and negates once. On the extended reals the two agree when no logarithm is +∞, which the precondition (every
  input a real number) gives: then minus distributes over the sums. The bin words are below 441 for every input, by
  the clipping of the two channels to 0 … 20.

  The three frames: the kernel's two are the generated frame runs; the reference's is its run with the result dropped.
  The idealization rewrote nothing, so that claim is trivial.
-/
import proofs.«104885_j67791763800580_2_alg».proof.Defs
import proofs.«104885_j67791763800580_2_alg».proof.Proof.Gen.Kernel
import proofs.«104885_j67791763800580_2_alg».proof.Proof.Gen.Kernel.Skeleton
import proofs.«104885_j67791763800580_2_alg».proof.Proof.Gen.Kernel.Launch
import proofs.«104885_j67791763800580_2_alg».proof.Proof.Gen.Kernel.Points
import proofs.«104885_j67791763800580_2_alg».proof.Proof.Gen.Kernel.Frame
import proofs.«104885_j67791763800580_2_alg».proof.Proof.Gen.KernelIdeal
import proofs.«104885_j67791763800580_2_alg».proof.Proof.Gen.KernelIdeal.Skeleton
import proofs.«104885_j67791763800580_2_alg».proof.Proof.Gen.KernelIdeal.Launch
import proofs.«104885_j67791763800580_2_alg».proof.Proof.Gen.KernelIdeal.Points
import proofs.«104885_j67791763800580_2_alg».proof.Proof.Gen.KernelIdeal.Frame
import proofs.«104885_j67791763800580_2_alg».proof.Proof.Gen.ReferenceIdeal
import proofs.«104885_j67791763800580_2_alg».proof.Proof.Gen.Pre_finite_inputs
import proofs.«104885_j67791763800580_2_alg».proof.Proof.RefRunP
import proofs.«104885_j67791763800580_2_alg».proof.Proof.RefReadP
import proofs.«104885_j67791763800580_2_alg».proof.Proof.RefValue
import proofs.«104885_j67791763800580_2_alg».proof.Proof.BinRange
import proofs.«104885_j67791763800580_2_alg».proof.Proof.Result
import Idealize.ShloMosaic.Adequacy
import Idealize.ShloMosaic.Init

noncomputable section

namespace Cert.Proof

open Idealize.ShloMosaic Idealize.SL.Sem Idealize.ShloMosaic.TcCoe

theorem frame_p : Cert.frame_Kernel := fun m ρ _ => Cert.Kernel.Gen.frame m ρ

theorem frame_pi : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- Both runs end at the loss of the kernel's argument arrays. -/
theorem algebraic : Cert.algebraic_KernelIdeal_ReferenceIdeal := by
  intro m ρ m' ρ' hpre hagree
  refine ⟨fun c => Cert.Spec.loss (m ((c.tc : Thread Cert.KernelIdeal.nD Cert.KernelIdeal.τ).loc Cert.KernelIdeal.main_arg0))
      (Cert.ReferenceIdeal.ReadP.val_main_v13 (F := Ideal)
        (m ((c.tc : Thread Cert.KernelIdeal.nD Cert.KernelIdeal.τ).loc Cert.KernelIdeal.main_arg1))), ?_, ?_⟩
  · exact (θ_run Cert.KernelIdeal.defs _ _).mono
      (fun _ h c => ⟨(h c).1.trans (Cert.KernelIdeal.Result.result_is_loss m hpre c), (h c).2⟩)
      (Cert.KernelIdeal.Result.run m ρ)
  · refine (θ_run Cert.ReferenceIdeal.defs _ _).mono (fun _ h c => ⟨?_, (h c).2⟩)
      (Cert.ReferenceIdeal.ValueP.run (F := Ideal) m' ρ')
    rw [(h c).1, Cert.ReferenceIdeal.ReadP.val_main_v18_eq,
      Cert.ReferenceIdeal.RefValue.reference_is_loss _ _ (fun j => Cert.ReferenceIdeal.BinRange.bin_lt _ j),
      (hagree c).1, (hagree c).2]

theorem claim : Cert.Claim := ⟨Cert.Kernel.Gen.facts, Cert.KernelIdeal.Gen.facts, Cert.ReferenceIdeal.Gen.facts, Cert.Pre_finite_inputs.Gen.facts,
  frame_p, frame_pi, frame_ri, preserves, algebraic⟩

end Cert.Proof

end
